-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_arg8 : FVec F S256x256 .f32) (main_arg9 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x256 .f32) (main_arg1 : FVec F S10000x10000 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S400x10000 : Shape := ⟨2, ![400, 10000]⟩
abbrev S400x256 : Shape := ⟨2, ![400, 256]⟩
abbrev S1000x10000 : Shape := ⟨2, ![1000, 10000]⟩
abbrev S1000x256 : Shape := ⟨2, ![1000, 256]⟩

abbrev nBuf : Space → Nat
  | .hbm => 23
  | .vmem => 31
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S1x256, .f32⟩
  | .hbm, ⟨11, _⟩ => ⟨S1x256, .f32⟩
  | .hbm, ⟨12, _⟩ => ⟨S10000x10000, .bf16⟩
  | .hbm, ⟨13, _⟩ => ⟨S10000x256, .bf16⟩
  | .hbm, ⟨14, _⟩ => ⟨S1x256, .f32⟩
  | .hbm, ⟨15, _⟩ => ⟨S1x256, .f32⟩
  | .hbm, ⟨16, _⟩ => ⟨S10000x256, .bf16⟩
  | .hbm, ⟨17, _⟩ => ⟨S1x256, .f32⟩
  | .hbm, ⟨18, _⟩ => ⟨S1x256, .f32⟩
  | .hbm, ⟨19, _⟩ => ⟨S10000x256, .bf16⟩
  | .hbm, ⟨20, _⟩ => ⟨S1x256, .f32⟩
  | .hbm, ⟨21, _⟩ => ⟨S1x256, .f32⟩
  | .hbm, ⟨22, _⟩ => ⟨S10000x256, .f32⟩
  | .local _ .vmem, ⟨0, _⟩ => ⟨S10000x256, .f32⟩
  | .local _ .vmem, ⟨1, _⟩ => ⟨S256x256, .f32⟩
  | .local _ .vmem, ⟨2, _⟩ => ⟨S1x256, .f32⟩
  | .local _ .vmem, ⟨3, _⟩ => ⟨S256x256, .f32⟩
  | .local _ .vmem, ⟨4, _⟩ => ⟨S400x10000, .f32⟩
  | .local _ .vmem, ⟨5, _⟩ => ⟨S400x10000, .f32⟩
  | .local _ .vmem, ⟨6, _⟩ => ⟨S400x10000, .bf16⟩
  | .local _ .vmem, ⟨7, _⟩ => ⟨S400x10000, .bf16⟩
  | .local _ .vmem, ⟨8, _⟩ => ⟨S400x256, .bf16⟩
  | .local _ .vmem, ⟨9, _⟩ => ⟨S400x256, .bf16⟩
  | .local _ .vmem, ⟨10, _⟩ => ⟨S10000x256, .bf16⟩
  | .local _ .vmem, ⟨11, _⟩ => ⟨S10000x256, .bf16⟩
  | .local _ .vmem, ⟨12, _⟩ => ⟨S1x256, .f32⟩
  | .local _ .vmem, ⟨13, _⟩ => ⟨S256x256, .f32⟩
  | .local _ .vmem, ⟨14, _⟩ => ⟨S1000x10000, .bf16⟩
  | .local _ .vmem, ⟨15, _⟩ => ⟨S1000x10000, .bf16⟩
  | .local _ .vmem, ⟨16, _⟩ => ⟨S1000x256, .bf16⟩
  | .local _ .vmem, ⟨17, _⟩ => ⟨S1000x256, .bf16⟩
  | .local _ .vmem, ⟨18, _⟩ => ⟨S10000x256, .bf16⟩
  | .local _ .vmem, ⟨19, _⟩ => ⟨S1x256, .f32⟩
  | .local _ .vmem, ⟨20, _⟩ => ⟨S256x256, .f32⟩
  | .local _ .vmem, ⟨21, _⟩ => ⟨S1000x10000, .bf16⟩
  | .local _ .vmem, ⟨22, _⟩ => ⟨S1000x10000, .bf16⟩
  | .local _ .vmem, ⟨23, _⟩ => ⟨S1000x256, .bf16⟩
  | .local _ .vmem, ⟨24, _⟩ => ⟨S1000x256, .bf16⟩
  | .local _ .vmem, ⟨25, _⟩ => ⟨S10000x256, .bf16⟩
  | .local _ .vmem, ⟨26, _⟩ => ⟨S1x256, .f32⟩
  | .local _ .vmem, ⟨27, _⟩ => ⟨S1000x10000, .bf16⟩
  | .local _ .vmem, ⟨28, _⟩ => ⟨S1000x10000, .bf16⟩
  | .local _ .vmem, ⟨29, _⟩ => ⟨S1000x256, .f32⟩
  | .local _ .vmem, ⟨30, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc2_sem0_0 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x10000 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x10000 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S10000x256 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x10000 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1000x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S10000x256 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x10000 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S256_S1x256 : S256.ShapeCasts S1x256
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S400x256_S400x256_0_0 : ∀ a, (![0, 0] : Fin 2 → Nat) a + S400x256.size a ≤ S400x256.size a
  h_S400x256 : 0 < S400x256.numel
  packedbf16_S400x256_S400x256_0_0 : (Rect.unit (s := S400x256) ![0, 0] S400x256.size inb_S400x256_S400x256_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  packedbf16_S1000x256_S1000x256_0_0 : (Rect.unit (s := S1000x256) ![0, 0] S1000x256.size inb_S1000x256_S1000x256_0_0).PackedRows (EltTy.packing .bf16)
  dot_S10000x256_S256x256_S10000x256_1_0_0_1_n_n_wf : DotDims.WF S10000x256 S256x256 S10000x256 [1] [0] [0] [1] [] []
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  dot_S1000x10000_S10000x256_S1000x256_1_0_0_1_n_n_wf : DotDims.WF S1000x10000 S10000x256 S1000x256 [1] [0] [0] [1] [] []
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x10000.size a ≤ S10000x10000.size a
  hwx0_4 : ∀ i : grid0.Coords, EltTy.bits .f32 = 32 ∨ (Rect.block (s := S10000x10000) S400x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .bf16 = 32 ∨ (Rect.block (s := S10000x10000) S400x10000.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x256.size a ≤ S10000x256.size a
  hwx0_6 : ∀ i : grid0.Coords, EltTy.bits .bf16 = 32 ∨ (Rect.block (s := S10000x256) S400x256.size (cc0_transform_6 i) (hinb0_6 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x256.size a ≤ S10000x256.size a
  hwx1_0 : ∀ i : grid1.Coords, EltTy.bits .bf16 = 32 ∨ (Rect.block (s := S10000x256) S10000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x10000.size a ≤ S10000x10000.size a
  hwx1_3 : ∀ i : grid1.Coords, EltTy.bits .bf16 = 32 ∨ (Rect.block (s := S10000x10000) S1000x10000.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x256.size a ≤ S10000x256.size a
  hwx1_4 : ∀ i : grid1.Coords, EltTy.bits .bf16 = 32 ∨ (Rect.block (s := S10000x256) S1000x256.size (cc1_transform_4 i) (hinb1_4 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S10000x256.size a ≤ S10000x256.size a
  hwx2_0 : ∀ i : grid2.Coords, EltTy.bits .bf16 = 32 ∨ (Rect.block (s := S10000x256) S10000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x10000.size a ≤ S10000x10000.size a
  hwx2_3 : ∀ i : grid2.Coords, EltTy.bits .bf16 = 32 ∨ (Rect.block (s := S10000x10000) S1000x10000.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x256.size a ≤ S10000x256.size a
  hwx2_4 : ∀ i : grid2.Coords, EltTy.bits .bf16 = 32 ∨ (Rect.block (s := S10000x256) S1000x256.size (cc2_transform_4 i) (hinb2_4 i)).WholeWords (EltTy.packing .bf16)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S10000x256.size a ≤ S10000x256.size a
  hwx3_0 : ∀ i : grid3.Coords, EltTy.bits .bf16 = 32 ∨ (Rect.block (s := S10000x256) S10000x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x10000.size a ≤ S10000x10000.size a
  hwx3_2 : ∀ i : grid3.Coords, EltTy.bits .bf16 = 32 ∨ (Rect.block (s := S10000x10000) S1000x10000.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x256.size a ≤ S10000x256.size a
  hwx3_3 : ∀ i : grid3.Coords, EltTy.bits .f32 = 32 ∨ (Rect.block (s := S10000x256) S1000x256.size (cc3_transform_3 i) (hinb3_3 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S1000x10000_S10000x256_S1000x256_1_0_0_1_n_n : DotDims S1000x10000 S10000x256 S1000x256 where
  lhsContracting := [1]
  rhsContracting := [0]
  lhsNonContracting := [0]
  rhsNonContracting := [1]
  lhsBatch := []
  rhsBatch := []
  wf := dot_S1000x10000_S10000x256_S1000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S400x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S400x10000.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S400x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2_1) S10000x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S1000x10000.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v5) S10000x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2_0) S1000x10000.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v8) S10000x256.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v10) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2_0) S1000x10000.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v11) S1000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S10000x256, .f32⟩
  | .hbm, ⟨11, _⟩ => ⟨S10000x256, .f32⟩
  | .hbm, ⟨12, _⟩ => ⟨S1x256, .f32⟩
  | .hbm, ⟨13, _⟩ => ⟨S10000x256, .f32⟩
  | .hbm, ⟨14, _⟩ => ⟨S10000x256, .f32⟩
  | .hbm, ⟨15, _⟩ => ⟨S_, .f32⟩
  | .hbm, ⟨16, _⟩ => ⟨S10000x256, .f32⟩
  | .hbm, ⟨17, _⟩ => ⟨S10000x256, .f32⟩
  | .hbm, ⟨18, _⟩ => ⟨S10000x256, .f32⟩
  | .hbm, ⟨19, _⟩ => ⟨S10000x256, .f32⟩
  | .hbm, ⟨20, _⟩ => ⟨S1x256, .f32⟩
  | .hbm, ⟨21, _⟩ => ⟨S10000x256, .f32⟩
  | .hbm, ⟨22, _⟩ => ⟨S10000x256, .f32⟩
  | .hbm, ⟨23, _⟩ => ⟨S_, .f32⟩
  | .hbm, ⟨24, _⟩ => ⟨S10000x256, .f32⟩
  | .hbm, ⟨25, _⟩ => ⟨S10000x256, .f32⟩
  | .hbm, ⟨26, _⟩ => ⟨S10000x256, .f32⟩
  | .hbm, ⟨27, _⟩ => ⟨S10000x256, .f32⟩
  | .hbm, ⟨28, _⟩ => ⟨S1x256, .f32⟩
  | .hbm, ⟨29, _⟩ => ⟨S10000x256, .f32⟩
  | .hbm, ⟨30, _⟩ => ⟨S10000x256, .f32⟩
  | .hbm, ⟨31, _⟩ => ⟨S_, .f32⟩
  | .hbm, ⟨32, _⟩ => ⟨S10000x256, .f32⟩
  | .hbm, ⟨33, _⟩ => ⟨S10000x256, .f32⟩
  | .hbm, ⟨34, _⟩ => ⟨S10000x256, .f32⟩
  | .hbm, ⟨35, _⟩ => ⟨S10000x256, .f32⟩
  | .hbm, ⟨36, _⟩ => ⟨S1x256, .f32⟩
  | .hbm, ⟨37, _⟩ => ⟨S10000x256, .f32⟩
  | .hbm, ⟨38, _⟩ => ⟨S10000x256, .f32⟩
  | .hbm, ⟨39, _⟩ => ⟨S_, .f32⟩
  | .hbm, ⟨40, _⟩ => ⟨S10000x256, .f32⟩
  | .hbm, ⟨41, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call2_cst : Ref sig .tc := ⟨.hbm, 31, rfl⟩
abbrev main_call2_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call3_cst : Ref sig .tc := ⟨.hbm, 39, rfl⟩
abbrev main_call3_v0 : Ref sig .tc := ⟨.hbm, 40, rfl⟩
abbrev main_v23 : Ref sig .tc := ⟨.hbm, 41, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.BitsRegion0.lean ====
/-
  Region 0: the first support matrix once, then one row-tile of  max (A · s₁ + b₁) 0 · W₂  and of the adjacency's copy per
  grid point.

  Seven windows: `x`, `W₁`, the bias row `b₁` and `W₂` whole (the same block at every point), the adjacency's row tile of
  400 rows, and two output row tiles — the adjacency's copy and the next support matrix. Beside them the body owns a
  scratch buffer for `s₁ = x · W₁`: at the grid's first point (and only there) it computes `s₁` from the `x` and `W₁`
  blocks and stores it whole into the scratch; at every point it then reads the scratch back. So after the first point the
  scratch holds `s₁` of the first point's blocks for the rest of the region, which is the invariant carried from point to
  point. Stated at any contents `V` of the buffers when the region is entered.
-/
import proofs.«146984_g21294447854208_cont_8to1_547_18_alg».proof.Proof.Gen.Kernel.Launch
import proofs.«146984_g21294447854208_cont_8to1_547_18_alg».proof.Proof.Gen.Kernel.Skeleton
import proofs.«146984_g21294447854208_cont_8to1_547_18_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or kept it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there or kept it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there or kept it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there or kept it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the pipeline fetched it there or kept it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body reads and writes. -/
abbrev rX0 : Rect S10000x256 := Rect.unit (s := S10000x256) ![0, 0] S10000x256.size inb_S10000x256_S10000x256_0_0
abbrev rB0 : Rect S1x256 := Rect.unit (s := S1x256) ![0, 0] S1x256.size inb_S1x256_S1x256_0_0
abbrev rW0 : Rect S256x256 := Rect.unit (s := S256x256) ![0, 0] S256x256.size inb_S256x256_S256x256_0_0
abbrev rA0 : Rect S400x10000 := Rect.unit (s := S400x10000) ![0, 0] S400x10000.size inb_S400x10000_S400x10000_0_0
abbrev rO0 : Rect S400x256 := Rect.unit (s := S400x256) ![0, 0] S400x256.size inb_S400x256_S400x256_0_0

/-- The branch condition of the body's one conditional, from the grid coordinates: "this is the first point". -/
abbrev cond0 (i : grid0.Coords) : Prop :=
  (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

/-- The scratch operand: a whole scoped buffer of the kernel's own. -/
abbrev scM0 : Memref sig .tc .vmem S10000x256 .bf16 := Memref.whole cc0_scratch0

/-- What the first point stores into the scratch: the payload of the `x` and `W₁` blocks. -/
def sval0 (x0 : Vec F S10000x256 .f32) (x1 : Vec F S256x256 .f32) : Vec F S10000x256 .bf16 :=
  k0_pay1 (View.ld x0 rX0) (View.ld x1 rW0)

/-- What the body leaves in the adjacency copy's staging buffer. -/
def out0_5 (x4 : Vec F S400x10000 .f32) : Vec F S400x10000 .bf16 :=
  View.canon [⟨rA0, k0_pay2 (View.ld x4 rA0)⟩]
/-- What the body leaves in the next support's staging buffer, `s` being what it read from the scratch. -/
def out0_6 (x2 : Vec F S1x256 .f32) (x3 : Vec F S256x256 .f32) (x4 : Vec F S400x10000 .f32) (s : Vec F S10000x256 .bf16) : Vec F S400x256 .bf16 :=
  View.canon [⟨rO0, k0_pay3 (View.ld x4 rA0) s (View.ld x2 rB0) (View.ld x3 rW0)⟩]

theorem cover0_5 (p0 : Vec F S400x10000 .bf16) (y : S400x10000.Idx) :
    ∃ pc ∈ ([⟨rA0, p0⟩] : List (View.Piece (Elt F) S400x10000 .bf16)), y ∈ pc.1.set :=
  View.cover_of_tiled [⟨rA0, p0⟩] S400x10000.size (by rfl) y
theorem cover0_6 (p0 : Vec F S400x256 .bf16) (y : S400x256.Idx) :
    ∃ pc ∈ ([⟨rO0, p0⟩] : List (View.Piece (Elt F) S400x256 .bf16)), y ∈ pc.1.set :=
  View.cover_of_tiled [⟨rO0, p0⟩] S400x256.size (by rfl) y
theorem cover0_s (p0 : Vec F S10000x256 .bf16) (y : S10000x256.Idx) :
    ∃ pc ∈ ([⟨rX0, p0⟩] : List (View.Piece (Elt F) S10000x256 .bf16)), y ∈ pc.1.set :=
  View.cover_of_tiled [⟨rX0, p0⟩] S10000x256.size (by rfl) y

/-- The zero offsets, however spelt. -/
theorem hz2 : (![0, 0] : Fin S10000x256.rank → Nat) = fun _ => 0 := by
  funext a; match a with | ⟨0, _⟩ => rfl | ⟨1, _⟩ => rfl

set_option maxHeartbeats 4000000 in
/-- AT THE FIRST POINT the body on whole staging memrefs — the inputs' at contents `x·`, the outputs' and the scratch at
    anything — runs to the continuation with the inputs as they were, the scratch at `sval0` of the `x` and `W₁` blocks and the
    outputs at `out0_5`, `out0_6` read over that scratch value. -/
theorem sound_kernel0_first (c : Dev nD) (E : Set ℕ) (i : grid0.Coords) (hc : cond0 i)
    (arg1 : Memref sig .tc .vmem S10000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x256 .f32) (harg4 : arg4.IsWhole)
    (arg5 : Memref sig .tc .vmem S400x10000 .f32) (harg5 : arg5.IsWhole) (arg6 : Memref sig .tc .vmem S400x10000 .bf16) (harg6 : arg6.IsWhole)
    (arg7 : Memref sig .tc .vmem S400x256 .bf16) (harg7 : arg7.IsWhole) (arg8 : Memref sig .tc .vmem S10000x256 .bf16) (harg8 : arg8.IsWhole)
    (x0 : Vec F S10000x256 .f32) (x1 : Vec F S256x256 .f32) (x2 : Vec F S1x256 .f32) (x3 : Vec F S256x256 .f32) (x4 : Vec F S400x10000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x4) ∗ owns (c : Thread nD τ) arg7 fullShare (out0_6 x2 x3 x4 (sval0 x0 x1))
            ∗ owns (c : Thread nD τ) arg8 fullShare (sval0 x0 x1)) -∗ K ⟨⟩))
      ⊢ wp frame (wpE (defs₀ (F := F)) Variants.none c none) E (cc0__first_kernel i arg1 harg1 arg2 harg2 arg3 harg3 arg4 harg4 arg5 harg5 arg6 harg6 arg7 harg7 arg8 harg8) K := by
  simp only [cc0__first_kernel_eq_skeleton]; unfold cc0__first_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d8, %f8, -, H8⟩, Hk⟩
  subst hf0; subst hf1; subst hf2; subst hf3; subst hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    sl_unfold_run_names
    refine (View.read_writes_eq_canon _ _ _ (cover0_6 _)).trans ?_
    unfold out0_6 sval0
    rw [View.readCov_unit_zero _ hz2]
    rfl
  iexists _; isplitr
  swap; · iexact H8
  ipureintro
  sl_unfold_run_names
  exact (View.read_writes_eq_canon _ _ _ (cover0_s _)).trans (View.canon_unit_zero hz2 _ _)

set_option maxHeartbeats 4000000 in
/-- AT ANY LATER POINT the body, the scratch at contents `s`, runs to the continuation with the inputs and the scratch as they
    were and the outputs at `out0_5`, `out0_6` read over `s`. -/
theorem sound_kernel0_rest (c : Dev nD) (E : Set ℕ) (i : grid0.Coords) (hc : ¬cond0 i)
    (arg1 : Memref sig .tc .vmem S10000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x256 .f32) (harg4 : arg4.IsWhole)
    (arg5 : Memref sig .tc .vmem S400x10000 .f32) (harg5 : arg5.IsWhole) (arg6 : Memref sig .tc .vmem S400x10000 .bf16) (harg6 : arg6.IsWhole)
    (arg7 : Memref sig .tc .vmem S400x256 .bf16) (harg7 : arg7.IsWhole) (arg8 : Memref sig .tc .vmem S10000x256 .bf16) (harg8 : arg8.IsWhole)
    (x0 : Vec F S10000x256 .f32) (x1 : Vec F S256x256 .f32) (x2 : Vec F S1x256 .f32) (x3 : Vec F S256x256 .f32) (x4 : Vec F S400x10000 .f32) (s : Vec F S10000x256 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ owns (c : Thread nD τ) arg8 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x4) ∗ owns (c : Thread nD τ) arg7 fullShare (out0_6 x2 x3 x4 s)
            ∗ owns (c : Thread nD τ) arg8 fullShare s) -∗ K ⟨⟩))
      ⊢ wp frame (wpE (defs₀ (F := F)) Variants.none c none) E (cc0__first_kernel i arg1 harg1 arg2 harg2 arg3 harg3 arg4 harg4 arg5 harg5 arg6 harg6 arg7 harg7 arg8 harg8) K := by
  simp only [cc0__first_kernel_eq_skeleton]; unfold cc0__first_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f8, %hf8, H8⟩, Hk⟩
  subst hf0; subst hf1; subst hf2; subst hf3; subst hf4; subst hf8
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    refine (View.read_writes_eq_canon _ _ _ (cover0_6 _)).trans ?_
    unfold out0_6
    rw [← View.ld_unit_zero (S := S10000x256) hz2 inb_S10000x256_S10000x256_0_0 (arg8.view.read (Elt F) f8)]
    rfl
  iexists f8; isplitr; · ipureintro; rfl
  iexact H8

/-! ## The invariant carried from point to point -/

/-- The grid's first point. -/
def t00 : Fin cfg0.N := ⟨0, by rw [show cfg0.N = 25 from N_0]; decide⟩

/-- The first support matrix as the first point computes it: `sval0` of the `x` and `W₁` blocks at that point. -/
def supp0 (c : Dev nD) : Vec F S10000x256 .bf16 := sval0 (iblk0 V c 0 t00) (iblk0 V c 1 t00)

/-- The core's scoped buffers that are no staging buffer of this region are the scratch, at some contents, beside the
    others. -/
theorem scoped0_split (c : Dev nD) : ∃ T : sProp 𝕄,
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ T) :=
  ⟨_, scopedRest0_eq c⟩

/-- The scoped buffers beside the scratch. -/
def others0 (c : Dev nD) : sProp 𝕄 := Classical.choose (scoped0_split (F := F) c)

theorem scopedRest0_scratch (c : Dev nD) :
    (Pipeline.scopedRest (Ix := Unit) (Name := ℕ) (U := UR sig nD τ) (Lvl := ℕ) (Val := Elt F) spec0 c : sProp 𝕄)
      = iprop((∃ d, owns (c : Thread nD τ) (scM0 : Memref sig .tc .vmem S10000x256 .bf16) fullShare d) ∗ others0 (F := F) c) := by
  rw [Classical.choose_spec (scoped0_split (F := F) c)]; simp only [scM0, owns_whole]; rfl

/-- The region's invariant before position `n`: before the first point the scoped rest and the generator register, the
    scratch at anything; afterwards the same with the scratch at the first support matrix. -/
def inv0 (c : Dev nD) : ℕ → sProp 𝕄
  | 0 => Pipeline.ΦA spec0 c
  | _ + 1 => iprop(owns (c : Thread nD τ) (scM0 : Memref sig .tc .vmem S10000x256 .bf16) fullShare (supp0 V c) ∗ others0 (F := F) c ∗ (∃ r, prngReg c r))

theorem inv0_pos (c : Dev nD) (n : ℕ) (hn : n ≠ 0) :
    inv0 V c n = iprop(owns (c : Thread nD τ) (scM0 : Memref sig .tc .vmem S10000x256 .bf16) fullShare (supp0 V c) ∗ others0 (F := F) c ∗ (∃ r, prngReg c r)) := by
  cases n with
  | zero => exact absurd rfl hn
  | succ n => rfl

theorem PhiA0_eq (c : Dev nD) :
    (Pipeline.ΦA spec0 c : sProp 𝕄)
      = iprop(((∃ d, owns (c : Thread nD τ) (scM0 : Memref sig .tc .vmem S10000x256 .bf16) fullShare d) ∗ others0 (F := F) c) ∗ (∃ r, prngReg c r)) := by
  unfold Pipeline.ΦA; rw [scopedRest0_scratch]

/-! ## The pipeline's proof data -/

/-- The proof data of pipeline 0 on core `c`: the arrays as the region finds them; after the body at point `t` each input's
    buffer at its block, the adjacency copy's at `out0_5` of the adjacency block and the next support's at `out0_6` of the
    point's blocks read over the first support matrix; the invariant `inv0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 4 t)
    | ⟨6, _⟩ => out0_6 (iblk0 V c 2 t) (iblk0 V c 3 t) (iblk0 V c 4 t) (supp0 V c)
  Φ t := inv0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 4 t) := by dsimp only [dat0]
theorem after0_6 (c : Dev nD) (t : Fin cfg0.N) :
    (dat0 V c).after 6 t = out0_6 (iblk0 V c 2 t) (iblk0 V c 3 t) (iblk0 V c 4 t) (supp0 V c) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point: the inputs' memrefs hold their blocks; at the first point the invariant hands the scratch over at
    anything and takes it back at the first support matrix; at a later point it hands it over at the first support matrix
    and takes it back unchanged; the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = inv0 V c (t.val + 1) from rfl,
    show (dat0 V c).Φ t.castSucc = inv0 V c t.val from rfl,
    inv0_pos V c (t.val + 1) (Nat.succ_ne_zero _),
    after0_0, after0_1, after0_2, after0_3, after0_4, after0_5, after0_6]
  by_cases hz : t.val = 0
  · have ht : t = t00 := Fin.ext hz
    rw [hz, show inv0 V c 0 = Pipeline.ΦA spec0 c from rfl, PhiA0_eq]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_first c Set.univ (grid0.coords t) ((hcond0 t).mpr hz) _ _ _ _ _ _ _ _ _ _ _ _ _ _ _ _
      (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    rw [show supp0 V c = sval0 (iblk0 V c 0 t) (iblk0 V c 1 t) from by rw [ht]; rfl]
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [inv0_pos V c t.val hz]
    iintro ⟨⟨HS, Hoth, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_rest c Set.univ (grid0.coords t) (fun h => hz ((hcond0 t).mp h)) _ _ _ _ _ _ _ _ _ _ _ _ _ _ _ _
      (iblk0 V c 0 t) (iblk0 V c 1 t) (iblk0 V c 2 t) (iblk0 V c 3 t) (iblk0 V c 4 t) (supp0 V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Pipeline.ΦA spec0 c from rfl]

/-- After the last point the invariant gives the scoped rest back: what the scratch holds is forgotten. -/
theorem hout0 (c : Dev nD) : (dat0 V c).Φ (Fin.last cfg0.N) ⊢ Pipeline.ΦA spec0 c := by
  rw [show (dat0 V c).Φ (Fin.last cfg0.N) = inv0 V c (Fin.last cfg0.N).val from rfl,
    inv0_pos V c _ (by rw [Fin.val_last, show cfg0.N = 25 from N_0]; decide), PhiA0_eq]
  iintro ⟨HS, Hoth, Hg⟩
  isplitl [HS Hoth]
  · isplitl [HS]; · iexists _; iexact HS
    iexact Hoth
  iexact Hg

end Cert.Kernel.Hand

end
-- ==== Proof.BitsRegion1.lean ====
/-
  Region 1: one row-tile of  max (A · s + b) 0 · W  per grid point.

  The pipeline stages five windows: the support matrix `s`, the bias row `b` and the next weight matrix `W` whole (the same
  block at every point), the adjacency's row tile of 1000 rows, and the output's row tile. The body loads the four input
  blocks whole and stores one value into the output block, so after the body the output's staging buffer holds that value
  of the four input blocks and the inputs' buffers are as they were. Stated at any contents `V` of the buffers when the
  region is entered.
-/
import proofs.«146984_g21294447854208_cont_8to1_547_18_alg».proof.Proof.Gen.Kernel.Launch
import proofs.«146984_g21294447854208_cont_8to1_547_18_alg».proof.Proof.Gen.Kernel.Skeleton
import proofs.«146984_g21294447854208_cont_8to1_547_18_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or kept it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the pipeline fetched it there or kept it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the pipeline fetched it there or kept it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the pipeline fetched it there or kept it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body reads and writes. -/
abbrev rS1 : Rect S10000x256 := Rect.unit (s := S10000x256) ![0, 0] S10000x256.size inb_S10000x256_S10000x256_0_0
abbrev rB1 : Rect S1x256 := Rect.unit (s := S1x256) ![0, 0] S1x256.size inb_S1x256_S1x256_0_0
abbrev rW1 : Rect S256x256 := Rect.unit (s := S256x256) ![0, 0] S256x256.size inb_S256x256_S256x256_0_0
abbrev rA1 : Rect S1000x10000 := Rect.unit (s := S1000x10000) ![0, 0] S1000x10000.size inb_S1000x10000_S1000x10000_0_0
abbrev rO1 : Rect S1000x256 := Rect.unit (s := S1000x256) ![0, 0] S1000x256.size inb_S1000x256_S1000x256_0_0

/-- What the body leaves in the output's staging buffer: its one store, of the payload of the four loaded blocks. -/
def out1_4 (x0 : Vec F S10000x256 .bf16) (x1 : Vec F S1x256 .f32) (x2 : Vec F S256x256 .f32) (x3 : Vec F S1000x10000 .bf16) : Vec F S1000x256 .bf16 :=
  View.canon [⟨rO1, k1_pay1 (View.ld x3 rA1) (View.ld x0 rS1) (View.ld x1 rB1) (View.ld x2 rW1)⟩]

/-- The one store covers the output block. -/
theorem cover1_4 (p0 : Vec F S1000x256 .bf16) (y : S1000x256.Idx) :
    ∃ pc ∈ ([⟨rO1, p0⟩] : List (View.Piece (Elt F) S1000x256 .bf16)), y ∈ pc.1.set :=
  View.cover_of_tiled [⟨rO1, p0⟩] S1000x256.size (by rfl) y

set_option maxHeartbeats 4000000 in
/-- The body on whole staging memrefs, the inputs' at contents `x·` and the output's at anything, runs to the continuation
    with the inputs as they were and the output at `out1_4` of them. -/
theorem sound_kernel1 (c : Dev nD) (E : Set ℕ) (i : grid1.Coords)
    (arg1 : Memref sig .tc .vmem S10000x256 .bf16) (harg1 : arg1.IsWhole) (arg2 : Memref sig .tc .vmem S1x256 .f32) (harg2 : arg2.IsWhole)
    (arg3 : Memref sig .tc .vmem S256x256 .f32) (harg3 : arg3.IsWhole) (arg4 : Memref sig .tc .vmem S1000x10000 .bf16) (harg4 : arg4.IsWhole)
    (arg5 : Memref sig .tc .vmem S1000x256 .bf16) (harg5 : arg5.IsWhole)
    (x0 : Vec F S10000x256 .bf16) (x1 : Vec F S1x256 .f32) (x2 : Vec F S256x256 .f32) (x3 : Vec F S1000x10000 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__mid_kernel i arg1 harg1 arg2 harg2 arg3 harg3 arg4 harg4 arg5 harg5) K := by
  simp only [cc1__mid_kernel_eq_skeleton]; unfold cc1__mid_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of pipeline 1 on core `c`: the arrays as the region finds them; after the body at point `t` each input's
    buffer at its block and the output's at `out1_4` of the input blocks; the scoped rest and the generator register ride
    along untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRegion2.lean ====
/-
  Region 2: one row-tile of  max (A · s + b) 0 · W  per grid point.

  The pipeline stages five windows: the support matrix `s`, the bias row `b` and the next weight matrix `W` whole (the same
  block at every point), the adjacency's row tile of 1000 rows, and the output's row tile. The body loads the four input
  blocks whole and stores one value into the output block, so after the body the output's staging buffer holds that value
  of the four input blocks and the inputs' buffers are as they were. Stated at any contents `V` of the buffers when the
  region is entered.
-/
import proofs.«146984_g21294447854208_cont_8to1_547_18_alg».proof.Proof.Gen.Kernel.Launch
import proofs.«146984_g21294447854208_cont_8to1_547_18_alg».proof.Proof.Gen.Kernel.Skeleton
import proofs.«146984_g21294447854208_cont_8to1_547_18_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there or kept it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the pipeline fetched it there or kept it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the pipeline fetched it there or kept it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the pipeline fetched it there or kept it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body reads and writes. -/
abbrev rS2 : Rect S10000x256 := Rect.unit (s := S10000x256) ![0, 0] S10000x256.size inb_S10000x256_S10000x256_0_0
abbrev rB2 : Rect S1x256 := Rect.unit (s := S1x256) ![0, 0] S1x256.size inb_S1x256_S1x256_0_0
abbrev rW2 : Rect S256x256 := Rect.unit (s := S256x256) ![0, 0] S256x256.size inb_S256x256_S256x256_0_0
abbrev rA2 : Rect S1000x10000 := Rect.unit (s := S1000x10000) ![0, 0] S1000x10000.size inb_S1000x10000_S1000x10000_0_0
abbrev rO2 : Rect S1000x256 := Rect.unit (s := S1000x256) ![0, 0] S1000x256.size inb_S1000x256_S1000x256_0_0

/-- What the body leaves in the output's staging buffer: its one store, of the payload of the four loaded blocks. -/
def out2_4 (x0 : Vec F S10000x256 .bf16) (x1 : Vec F S1x256 .f32) (x2 : Vec F S256x256 .f32) (x3 : Vec F S1000x10000 .bf16) : Vec F S1000x256 .bf16 :=
  View.canon [⟨rO2, k2_pay1 (View.ld x3 rA2) (View.ld x0 rS2) (View.ld x1 rB2) (View.ld x2 rW2)⟩]

/-- The one store covers the output block. -/
theorem cover2_4 (p0 : Vec F S1000x256 .bf16) (y : S1000x256.Idx) :
    ∃ pc ∈ ([⟨rO2, p0⟩] : List (View.Piece (Elt F) S1000x256 .bf16)), y ∈ pc.1.set :=
  View.cover_of_tiled [⟨rO2, p0⟩] S1000x256.size (by rfl) y

set_option maxHeartbeats 4000000 in
/-- The body on whole staging memrefs, the inputs' at contents `x·` and the output's at anything, runs to the continuation
    with the inputs as they were and the output at `out2_4` of them. -/
theorem sound_kernel2 (c : Dev nD) (E : Set ℕ) (i : grid2.Coords)
    (arg1 : Memref sig .tc .vmem S10000x256 .bf16) (harg1 : arg1.IsWhole) (arg2 : Memref sig .tc .vmem S1x256 .f32) (harg2 : arg2.IsWhole)
    (arg3 : Memref sig .tc .vmem S256x256 .f32) (harg3 : arg3.IsWhole) (arg4 : Memref sig .tc .vmem S1000x10000 .bf16) (harg4 : arg4.IsWhole)
    (arg5 : Memref sig .tc .vmem S1000x256 .bf16) (harg5 : arg5.IsWhole)
    (x0 : Vec F S10000x256 .bf16) (x1 : Vec F S1x256 .f32) (x2 : Vec F S256x256 .f32) (x3 : Vec F S1000x10000 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__mid_kernel i arg1 harg1 arg2 harg2 arg3 harg3 arg4 harg4 arg5 harg5) K := by
  simp only [cc2__mid_kernel_eq_skeleton]; unfold cc2__mid_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of pipeline 2 on core `c`: the arrays as the region finds them; after the body at point `t` each input's
    buffer at its block and the output's at `out2_4` of the input blocks; the scoped rest and the generator register ride
    along untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsRegion3.lean ====
/-
  Region 3: one row-tile of  max (A · s + b) 0  per grid point, the network's result.

  Four windows: the support matrix `s` and the bias row `b` whole (the same block at every point), the adjacency's row tile
  of 1000 rows, and the output's row tile. The body loads the three input blocks whole and stores one value into the
  output block. Stated at any contents `V` of the buffers when the region is entered.
-/
import proofs.«146984_g21294447854208_cont_8to1_547_18_alg».proof.Proof.Gen.Kernel.Launch
import proofs.«146984_g21294447854208_cont_8to1_547_18_alg».proof.Proof.Gen.Kernel.Skeleton
import proofs.«146984_g21294447854208_cont_8to1_547_18_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the pipeline fetched it there or kept it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether the pipeline fetched it there or kept it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether the pipeline fetched it there or kept it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body reads and writes. -/
abbrev rS3 : Rect S10000x256 := Rect.unit (s := S10000x256) ![0, 0] S10000x256.size inb_S10000x256_S10000x256_0_0
abbrev rB3 : Rect S1x256 := Rect.unit (s := S1x256) ![0, 0] S1x256.size inb_S1x256_S1x256_0_0
abbrev rA3 : Rect S1000x10000 := Rect.unit (s := S1000x10000) ![0, 0] S1000x10000.size inb_S1000x10000_S1000x10000_0_0
abbrev rO3 : Rect S1000x256 := Rect.unit (s := S1000x256) ![0, 0] S1000x256.size inb_S1000x256_S1000x256_0_0

/-- What the body leaves in the output's staging buffer: its one store, of the payload of the three loaded blocks. -/
def out3_3 (x0 : Vec F S10000x256 .bf16) (x1 : Vec F S1x256 .f32) (x2 : Vec F S1000x10000 .bf16) : Vec F S1000x256 .f32 :=
  View.canon [⟨rO3, k3_pay1 (View.ld x2 rA3) (View.ld x0 rS3) (View.ld x1 rB3)⟩]

/-- The one store covers the output block. -/
theorem cover3_3 (p0 : Vec F S1000x256 .f32) (y : S1000x256.Idx) :
    ∃ pc ∈ ([⟨rO3, p0⟩] : List (View.Piece (Elt F) S1000x256 .f32)), y ∈ pc.1.set :=
  View.cover_of_tiled [⟨rO3, p0⟩] S1000x256.size (by rfl) y

set_option maxHeartbeats 4000000 in
/-- The body on whole staging memrefs, the inputs' at contents `x·` and the output's at anything, runs to the continuation
    with the inputs as they were and the output at `out3_3` of them. -/
theorem sound_kernel3 (c : Dev nD) (E : Set ℕ) (i : grid3.Coords)
    (arg1 : Memref sig .tc .vmem S10000x256 .bf16) (harg1 : arg1.IsWhole) (arg2 : Memref sig .tc .vmem S1x256 .f32) (harg2 : arg2.IsWhole)
    (arg3 : Memref sig .tc .vmem S1000x10000 .bf16) (harg3 : arg3.IsWhole)
    (arg4 : Memref sig .tc .vmem S1000x256 .f32) (harg4 : arg4.IsWhole)
    (x0 : Vec F S10000x256 .bf16) (x1 : Vec F S1x256 .f32) (x2 : Vec F S1000x10000 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__last_kernel i arg1 harg1 arg2 harg2 arg3 harg3 arg4 harg4) K := by
  simp only [cc3__last_kernel_eq_skeleton]; unfold cc3__last_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of pipeline 3 on core `c`: the arrays as the region finds them; after the body at point `t` each input's
    buffer at its block and the output's at `out3_3` of the input blocks; the scoped rest and the generator register ride
    along untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BitsRun.lean ====
/-
  The whole run: @main is four stretches of host operations (each reshapes a bias vector into a row) alternating with the
  four kernel regions. The contents of the core's unscoped buffers are followed from the launch through every boundary —
  a host stretch applies its operations, a region replaces its windows' arrays by what its pipeline leaves and keeps
  every other buffer — and the run ends with every unscoped buffer at the last boundary's contents.
-/
import proofs.«146984_g21294447854208_cont_8to1_547_18_alg».proof.Proof.BitsRegion0
import proofs.«146984_g21294447854208_cont_8to1_547_18_alg».proof.Proof.BitsRegion1
import proofs.«146984_g21294447854208_cont_8to1_547_18_alg».proof.Proof.BitsRegion2
import proofs.«146984_g21294447854208_cont_8to1_547_18_alg».proof.Proof.BitsRegion3
import proofs.«146984_g21294447854208_cont_8to1_547_18_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)

/-- After host stretch 0 (region 0's entry). -/
abbrev B1 : Dev nD → Valuation τ sig (Elt F) := fun c => StableHlo.after hostOps0 (B0 m ρ c)
/-- The same read at the TensorCore's references. -/
abbrev U1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (dat0 (U1 m ρ) c).arrAt w cfg0.N
theorem B2_arr (c : Dev nD) (w : Fin cfg0.W) :
    B2 m ρ c (Proc.devRef .tc (Pipeline.arrRef spec0 w)) = (dat0 (U1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev U2 : (c : Dev nD) → (b : Ref sig .tc) → Buf (Elt F) ((c : Thread nD τ).loc b) := fun c b => B2 m ρ c b
theorem hF0 (c : Dev nD) (w : Fin cfg0.W) : (dat0 (U1 m ρ) c).arrAt w cfg0.N = U2 m ρ c (Pipeline.arrRef spec0 w) :=
  (B2_arr m ρ c w).symm
theorem hrest0 (c : Dev nD) : ∀ b, b ∉ Finset.univ.image (Pipeline.arrRef spec0) → U2 m ρ c b = U1 m ρ c b :=
  fun b hb => B2_of_ne m ρ c b fun w e => hb (Finset.mem_image.mpr ⟨w, Finset.mem_univ _, e⟩)

/-- After host stretch 1 (region 1's entry). -/
abbrev B3 : Dev nD → Valuation τ sig (Elt F) := fun c => StableHlo.after hostOps1 (B2 m ρ c)
/-- The same read at the TensorCore's references. -/
abbrev U3 : (c : Dev nD) → (b : Ref sig .tc) → Buf (Elt F) ((c : Thread nD τ).loc b) := fun c b => B3 m ρ c b
/-- At region 1's exit: its arrays at what the pipeline leaves, every other buffer as entered. -/
def B4 (c : Dev nD) : Valuation τ sig (Elt F) :=
  Pipeline.withArrays spec1 c (B3 m ρ c) fun w => (dat1 (U3 m ρ) c).arrAt w cfg1.N
theorem B4_arr (c : Dev nD) (w : Fin cfg1.W) :
    B4 m ρ c (Proc.devRef .tc (Pipeline.arrRef spec1 w)) = (dat1 (U3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev U4 : (c : Dev nD) → (b : Ref sig .tc) → Buf (Elt F) ((c : Thread nD τ).loc b) := fun c b => B4 m ρ c b
theorem hF1 (c : Dev nD) (w : Fin cfg1.W) : (dat1 (U3 m ρ) c).arrAt w cfg1.N = U4 m ρ c (Pipeline.arrRef spec1 w) :=
  (B4_arr m ρ c w).symm
theorem hrest1 (c : Dev nD) : ∀ b, b ∉ Finset.univ.image (Pipeline.arrRef spec1) → U4 m ρ c b = U3 m ρ c b :=
  fun b hb => B4_of_ne m ρ c b fun w e => hb (Finset.mem_image.mpr ⟨w, Finset.mem_univ _, e⟩)

/-- After host stretch 2 (region 2's entry). -/
abbrev B5 : Dev nD → Valuation τ sig (Elt F) := fun c => StableHlo.after hostOps2 (B4 m ρ c)
/-- The same read at the TensorCore's references. -/
abbrev U5 : (c : Dev nD) → (b : Ref sig .tc) → Buf (Elt F) ((c : Thread nD τ).loc b) := fun c b => B5 m ρ c b
/-- At region 2's exit: its arrays at what the pipeline leaves, every other buffer as entered. -/
def B6 (c : Dev nD) : Valuation τ sig (Elt F) :=
  Pipeline.withArrays spec2 c (B5 m ρ c) fun w => (dat2 (U5 m ρ) c).arrAt w cfg2.N
theorem B6_arr (c : Dev nD) (w : Fin cfg2.W) :
    B6 m ρ c (Proc.devRef .tc (Pipeline.arrRef spec2 w)) = (dat2 (U5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev U6 : (c : Dev nD) → (b : Ref sig .tc) → Buf (Elt F) ((c : Thread nD τ).loc b) := fun c b => B6 m ρ c b
theorem hF2 (c : Dev nD) (w : Fin cfg2.W) : (dat2 (U5 m ρ) c).arrAt w cfg2.N = U6 m ρ c (Pipeline.arrRef spec2 w) :=
  (B6_arr m ρ c w).symm
theorem hrest2 (c : Dev nD) : ∀ b, b ∉ Finset.univ.image (Pipeline.arrRef spec2) → U6 m ρ c b = U5 m ρ c b :=
  fun b hb => B6_of_ne m ρ c b fun w e => hb (Finset.mem_image.mpr ⟨w, Finset.mem_univ _, e⟩)

/-- After host stretch 3 (region 3's entry). -/
abbrev B7 : Dev nD → Valuation τ sig (Elt F) := fun c => StableHlo.after hostOps3 (B6 m ρ c)
/-- The same read at the TensorCore's references. -/
abbrev U7 : (c : Dev nD) → (b : Ref sig .tc) → Buf (Elt F) ((c : Thread nD τ).loc b) := fun c b => B7 m ρ c b
/-- At region 3's exit: its arrays at what the pipeline leaves, every other buffer as entered. -/
def B8 (c : Dev nD) : Valuation τ sig (Elt F) :=
  Pipeline.withArrays spec3 c (B7 m ρ c) fun w => (dat3 (U7 m ρ) c).arrAt w cfg3.N
theorem B8_arr (c : Dev nD) (w : Fin cfg3.W) :
    B8 m ρ c (Proc.devRef .tc (Pipeline.arrRef spec3 w)) = (dat3 (U7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev U8 : (c : Dev nD) → (b : Ref sig .tc) → Buf (Elt F) ((c : Thread nD τ).loc b) := fun c b => B8 m ρ c b
theorem hF3 (c : Dev nD) (w : Fin cfg3.W) : (dat3 (U7 m ρ) c).arrAt w cfg3.N = U8 m ρ c (Pipeline.arrRef spec3 w) :=
  (B8_arr m ρ c w).symm
theorem hrest3 (c : Dev nD) : ∀ b, b ∉ Finset.univ.image (Pipeline.arrRef spec3) → U8 m ρ c b = U7 m ρ c b :=
  fun b hb => B8_of_ne m ρ c b fun w e => hb (Finset.mem_image.mpr ⟨w, Finset.mem_univ _, e⟩)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (B8 m ρ c) ∗ ∃ r, prngReg c r)

/-! ## The regions as segments -/

set_option backward.isDefEq.respectTransparency.types false in
/-- Region 0 over the thread state: entered with every unscoped buffer at `B1`, left with them at `B2`; its arrays are
    split out of the unscoped buffers and put back at what the pipeline leaves; the generator register goes into the
    invariant and comes back; nothing owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (U1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `B3`, left with them at `B4`; its arrays are
    split out of the unscoped buffers and put back at what the pipeline leaves; the generator register goes into the
    invariant and comes back; nothing owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `B5`, left with them at `B6`; its arrays are
    split out of the unscoped buffers and put back at what the pipeline leaves; the generator register goes into the
    invariant and comes back; nothing owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `B7`, left with them at `B8`; its arrays are
    split out of the unscoped buffers and put back at what the pipeline leaves; the generator register goes into the
    invariant and comes back; nothing owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ L lv 3 fun _ _ => rfl
  pre c := iprop(StableHlo.held (c : Thread nD τ) (Pipeline.ucRefs τ sig) (B7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdats m ρ 3 c).Φ (Fin.last _) = Pipeline.ΦA spec3 c from rfl]
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U7 m ρ c) (U8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)),
    .region (reg3 m ρ) ]

theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m ρ c b)
    (hfin := fun c s' => by
      iintro ⟨⟨Hh, -⟩, HSI⟩
      unfold StableHlo.held
      imodintro
      iapply (pointsTo_read_all (Pipeline.ucRefs τ sig) (fun b => (((c : Thread nD τ)).1, b)) (B8 m ρ c) s')
      isplitl [Hh] <;> iassumption)
    (hQ := fun s h => h)

end Cert.Kernel.Hand

end
-- ==== Proof.BitsKeep.lean ====
/-
  What no item of @main changes. A host stretch writes only the bias rows it reshapes; a region writes only its output
  windows' arrays (an input window's array is never written back, and a buffer no window stages is untouched). So a buffer
  that is neither reaches every boundary with its launch contents — in particular the ten argument arrays reach the end
  unchanged, which is the frame claim.
-/
import proofs.«146984_g21294447854208_cont_8to1_547_18_alg».proof.Proof.BitsRun
import Idealize.ShloMosaic.Lib.StableHlo.Run

set_option maxRecDepth 16384

noncomputable section

namespace Cert.Kernel.Hand

open Cert.Kernel Cert.Kernel.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## One item at a time -/

/-- Host stretch 0 writes only its two reshaped rows. -/
theorem hostKeep0 (c : Dev nD) (b : Ref sig .tc) (h : b ∉ hostOps0_W) :
    B1 m ρ c (Proc.devRef .tc b) = B0 m ρ c (Proc.devRef .tc b) :=
  StableHlo.after_of_writes_sub hostOps0 _ hostOps0_writes h

/-- Region 0 changes only its output arrays: an input window's array is never written back, any other buffer is bypassed. -/
theorem regKeep0 (c : Dev nD) (b : Ref sig .tc) (hb : b ∉ ([main_v2_0, main_v2_1] : List (Ref sig .tc))) :
    B2 m ρ c (Proc.devRef .tc b) = B1 m ρ c (Proc.devRef .tc b) := by
  by_cases h : ∃ w, Pipeline.arrRef spec0 w = b
  · obtain ⟨w, rfl⟩ := h
    have hin : (cfg0.win w).isOut = false := by
      fin_cases w <;> first | rfl | exact absurd (by decide) hb
    exact (B2_arr m ρ c w).trans (((dat0 (U1 m ρ) c).arrAt_in w hin _).trans (A_eq0 (U1 m ρ) c w))
  · exact B2_of_ne m ρ c b fun w e => h ⟨w, e⟩

/-- Host stretch 1 writes only its two reshaped rows. -/
theorem hostKeep1 (c : Dev nD) (b : Ref sig .tc) (h : b ∉ hostOps1_W) :
    B3 m ρ c (Proc.devRef .tc b) = B2 m ρ c (Proc.devRef .tc b) :=
  StableHlo.after_of_writes_sub hostOps1 _ hostOps1_writes h

/-- Region 1 changes only its output arrays: an input window's array is never written back, any other buffer is bypassed. -/
theorem regKeep1 (c : Dev nD) (b : Ref sig .tc) (hb : b ∉ ([main_v5] : List (Ref sig .tc))) :
    B4 m ρ c (Proc.devRef .tc b) = B3 m ρ c (Proc.devRef .tc b) := by
  by_cases h : ∃ w, Pipeline.arrRef spec1 w = b
  · obtain ⟨w, rfl⟩ := h
    have hin : (cfg1.win w).isOut = false := by
      fin_cases w <;> first | rfl | exact absurd (by decide) hb
    exact (B4_arr m ρ c w).trans (((dat1 (U3 m ρ) c).arrAt_in w hin _).trans (A_eq1 (U3 m ρ) c w))
  · exact B4_of_ne m ρ c b fun w e => h ⟨w, e⟩

/-- Host stretch 2 writes only its two reshaped rows. -/
theorem hostKeep2 (c : Dev nD) (b : Ref sig .tc) (h : b ∉ hostOps2_W) :
    B5 m ρ c (Proc.devRef .tc b) = B4 m ρ c (Proc.devRef .tc b) :=
  StableHlo.after_of_writes_sub hostOps2 _ hostOps2_writes h

/-- Region 2 changes only its output arrays: an input window's array is never written back, any other buffer is bypassed. -/
theorem regKeep2 (c : Dev nD) (b : Ref sig .tc) (hb : b ∉ ([main_v8] : List (Ref sig .tc))) :
    B6 m ρ c (Proc.devRef .tc b) = B5 m ρ c (Proc.devRef .tc b) := by
  by_cases h : ∃ w, Pipeline.arrRef spec2 w = b
  · obtain ⟨w, rfl⟩ := h
    have hin : (cfg2.win w).isOut = false := by
      fin_cases w <;> first | rfl | exact absurd (by decide) hb
    exact (B6_arr m ρ c w).trans (((dat2 (U5 m ρ) c).arrAt_in w hin _).trans (A_eq2 (U5 m ρ) c w))
  · exact B6_of_ne m ρ c b fun w e => h ⟨w, e⟩

/-- Host stretch 3 writes only its two reshaped rows. -/
theorem hostKeep3 (c : Dev nD) (b : Ref sig .tc) (h : b ∉ hostOps3_W) :
    B7 m ρ c (Proc.devRef .tc b) = B6 m ρ c (Proc.devRef .tc b) :=
  StableHlo.after_of_writes_sub hostOps3 _ hostOps3_writes h

/-- Region 3 changes only its output arrays: an input window's array is never written back, any other buffer is bypassed. -/
theorem regKeep3 (c : Dev nD) (b : Ref sig .tc) (hb : b ∉ ([main_v11] : List (Ref sig .tc))) :
    B8 m ρ c (Proc.devRef .tc b) = B7 m ρ c (Proc.devRef .tc b) := by
  by_cases h : ∃ w, Pipeline.arrRef spec3 w = b
  · obtain ⟨w, rfl⟩ := h
    have hin : (cfg3.win w).isOut = false := by
      fin_cases w <;> first | rfl | exact absurd (by decide) hb
    exact (B8_arr m ρ c w).trans (((dat3 (U7 m ρ) c).arrAt_in w hin _).trans (A_eq3 (U7 m ρ) c w))
  · exact B8_of_ne m ρ c b fun w e => h ⟨w, e⟩

/-! ## From the launch to each boundary -/

variable (c : Dev nD) (b : Ref sig .tc)
theorem keepTo1 (h1 : b ∉ hostOps0_W) : B1 m ρ c (Proc.devRef .tc b) = m ((c : Thread nD τ).loc b) :=
  (hostKeep0 m ρ c b h1).trans rfl
theorem keepTo2 (h1 : b ∉ hostOps0_W) (h2 : b ∉ ([main_v2_0, main_v2_1] : List (Ref sig .tc))) :
    B2 m ρ c (Proc.devRef .tc b) = m ((c : Thread nD τ).loc b) :=
  (regKeep0 m ρ c b h2).trans (keepTo1 m ρ c b h1)
theorem keepTo3 (h1 : b ∉ hostOps0_W) (h2 : b ∉ ([main_v2_0, main_v2_1] : List (Ref sig .tc))) (h3 : b ∉ hostOps1_W) :
    B3 m ρ c (Proc.devRef .tc b) = m ((c : Thread nD τ).loc b) :=
  (hostKeep1 m ρ c b h3).trans (keepTo2 m ρ c b h1 h2)
theorem keepTo4 (h1 : b ∉ hostOps0_W) (h2 : b ∉ ([main_v2_0, main_v2_1] : List (Ref sig .tc))) (h3 : b ∉ hostOps1_W)
    (h4 : b ∉ ([main_v5] : List (Ref sig .tc))) : B4 m ρ c (Proc.devRef .tc b) = m ((c : Thread nD τ).loc b) :=
  (regKeep1 m ρ c b h4).trans (keepTo3 m ρ c b h1 h2 h3)
theorem keepTo5 (h1 : b ∉ hostOps0_W) (h2 : b ∉ ([main_v2_0, main_v2_1] : List (Ref sig .tc))) (h3 : b ∉ hostOps1_W)
    (h4 : b ∉ ([main_v5] : List (Ref sig .tc))) (h5 : b ∉ hostOps2_W) : B5 m ρ c (Proc.devRef .tc b) = m ((c : Thread nD τ).loc b) :=
  (hostKeep2 m ρ c b h5).trans (keepTo4 m ρ c b h1 h2 h3 h4)
theorem keepTo6 (h1 : b ∉ hostOps0_W) (h2 : b ∉ ([main_v2_0, main_v2_1] : List (Ref sig .tc))) (h3 : b ∉ hostOps1_W)
    (h4 : b ∉ ([main_v5] : List (Ref sig .tc))) (h5 : b ∉ hostOps2_W) (h6 : b ∉ ([main_v8] : List (Ref sig .tc))) :
    B6 m ρ c (Proc.devRef .tc b) = m ((c : Thread nD τ).loc b) :=
  (regKeep2 m ρ c b h6).trans (keepTo5 m ρ c b h1 h2 h3 h4 h5)
theorem keepTo7 (h1 : b ∉ hostOps0_W) (h2 : b ∉ ([main_v2_0, main_v2_1] : List (Ref sig .tc))) (h3 : b ∉ hostOps1_W)
    (h4 : b ∉ ([main_v5] : List (Ref sig .tc))) (h5 : b ∉ hostOps2_W) (h6 : b ∉ ([main_v8] : List (Ref sig .tc))) (h7 : b ∉ hostOps3_W) :
    B7 m ρ c (Proc.devRef .tc b) = m ((c : Thread nD τ).loc b) :=
  (hostKeep3 m ρ c b h7).trans (keepTo6 m ρ c b h1 h2 h3 h4 h5 h6)
theorem keepTo8 (h1 : b ∉ hostOps0_W) (h2 : b ∉ ([main_v2_0, main_v2_1] : List (Ref sig .tc))) (h3 : b ∉ hostOps1_W)
    (h4 : b ∉ ([main_v5] : List (Ref sig .tc))) (h5 : b ∉ hostOps2_W) (h6 : b ∉ ([main_v8] : List (Ref sig .tc))) (h7 : b ∉ hostOps3_W)
    (h8 : b ∉ ([main_v11] : List (Ref sig .tc))) : B8 m ρ c (Proc.devRef .tc b) = m ((c : Thread nD τ).loc b) :=
  (regKeep3 m ρ c b h8).trans (keepTo7 m ρ c b h1 h2 h3 h4 h5 h6 h7)

/-- An argument array is written by no item. -/
theorem arg_kept (hb : b ∈ ([main_arg0, main_arg1, main_arg2, main_arg3, main_arg4, main_arg5, main_arg6, main_arg7, main_arg8, main_arg9] : List (Ref sig .tc))) :
    B8 m ρ c (Proc.devRef .tc b) = m ((c : Thread nD τ).loc b) := by
  simp only [List.mem_cons, List.not_mem_nil, or_false] at hb
  rcases hb with rfl | rfl | rfl | rfl | rfl | rfl | rfl | rfl | rfl | rfl <;>
    exact keepTo8 m ρ c _ (by decide) (by decide) (by decide) (by decide) (by decide) (by decide) (by decide) (by decide)

/-! ## The frame claim -/

/-- Every weakly fair execution of @main terminates, nothing faulting, and the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_arg0 (by decide))).trans (arg_kept m ρ c main_arg0 (by decide)),
     (h c _ (mem_uc main_arg1 (by decide))).trans (arg_kept m ρ c main_arg1 (by decide)),
     (h c _ (mem_uc main_arg2 (by decide))).trans (arg_kept m ρ c main_arg2 (by decide)),
     (h c _ (mem_uc main_arg3 (by decide))).trans (arg_kept m ρ c main_arg3 (by decide)),
     (h c _ (mem_uc main_arg4 (by decide))).trans (arg_kept m ρ c main_arg4 (by decide)),
     (h c _ (mem_uc main_arg5 (by decide))).trans (arg_kept m ρ c main_arg5 (by decide)),
     (h c _ (mem_uc main_arg6 (by decide))).trans (arg_kept m ρ c main_arg6 (by decide)),
     (h c _ (mem_uc main_arg7 (by decide))).trans (arg_kept m ρ c main_arg7 (by decide)),
     (h c _ (mem_uc main_arg8 (by decide))).trans (arg_kept m ρ c main_arg8 (by decide)),
     (h c _ (mem_uc main_arg9 (by decide))).trans (arg_kept m ρ c main_arg9 (by decide))⟩)
    (run_all m ρ)

end Cert.Kernel.Hand

end
-- ==== Proof.IdealRegion0.lean ====
/-
  Region 0: the first support matrix once, then one row-tile of  max (A · s₁ + b₁) 0 · W₂  and of the adjacency's copy per
  grid point.

  Seven windows: `x`, `W₁`, the bias row `b₁` and `W₂` whole (the same block at every point), the adjacency's row tile of
  400 rows, and two output row tiles — the adjacency's copy and the next support matrix. Beside them the body owns a
  scratch buffer for `s₁ = x · W₁`: at the grid's first point (and only there) it computes `s₁` from the `x` and `W₁`
  blocks and stores it whole into the scratch; at every point it then reads the scratch back. So after the first point the
  scratch holds `s₁` of the first point's blocks for the rest of the region, which is the invariant carried from point to
  point. Stated at any contents `V` of the buffers when the region is entered.
-/
import proofs.«146984_g21294447854208_cont_8to1_547_18_alg».proof.Proof.Gen.KernelIdeal.Launch
import proofs.«146984_g21294447854208_cont_8to1_547_18_alg».proof.Proof.Gen.KernelIdeal.Skeleton
import proofs.«146984_g21294447854208_cont_8to1_547_18_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or kept it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there or kept it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there or kept it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there or kept it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the pipeline fetched it there or kept it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body reads and writes. -/
abbrev rX0 : Rect S10000x256 := Rect.unit (s := S10000x256) ![0, 0] S10000x256.size inb_S10000x256_S10000x256_0_0
abbrev rB0 : Rect S1x256 := Rect.unit (s := S1x256) ![0, 0] S1x256.size inb_S1x256_S1x256_0_0
abbrev rW0 : Rect S256x256 := Rect.unit (s := S256x256) ![0, 0] S256x256.size inb_S256x256_S256x256_0_0
abbrev rA0 : Rect S400x10000 := Rect.unit (s := S400x10000) ![0, 0] S400x10000.size inb_S400x10000_S400x10000_0_0
abbrev rO0 : Rect S400x256 := Rect.unit (s := S400x256) ![0, 0] S400x256.size inb_S400x256_S400x256_0_0

/-- The branch condition of the body's one conditional, from the grid coordinates: "this is the first point". -/
abbrev cond0 (i : grid0.Coords) : Prop :=
  (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

/-- The scratch operand: a whole scoped buffer of the kernel's own. -/
abbrev scM0 : Memref sig .tc .vmem S10000x256 .bf16 := Memref.whole cc0_scratch0

/-- What the first point stores into the scratch: the payload of the `x` and `W₁` blocks. -/
def sval0 (x0 : Vec F S10000x256 .f32) (x1 : Vec F S256x256 .f32) : Vec F S10000x256 .bf16 :=
  k0_pay1 (View.ld x0 rX0) (View.ld x1 rW0)

/-- What the body leaves in the adjacency copy's staging buffer. -/
def out0_5 (x4 : Vec F S400x10000 .f32) : Vec F S400x10000 .bf16 :=
  View.canon [⟨rA0, k0_pay2 (View.ld x4 rA0)⟩]
/-- What the body leaves in the next support's staging buffer, `s` being what it read from the scratch. -/
def out0_6 (x2 : Vec F S1x256 .f32) (x3 : Vec F S256x256 .f32) (x4 : Vec F S400x10000 .f32) (s : Vec F S10000x256 .bf16) : Vec F S400x256 .bf16 :=
  View.canon [⟨rO0, k0_pay3 (View.ld x4 rA0) s (View.ld x2 rB0) (View.ld x3 rW0)⟩]

theorem cover0_5 (p0 : Vec F S400x10000 .bf16) (y : S400x10000.Idx) :
    ∃ pc ∈ ([⟨rA0, p0⟩] : List (View.Piece (Elt F) S400x10000 .bf16)), y ∈ pc.1.set :=
  View.cover_of_tiled [⟨rA0, p0⟩] S400x10000.size (by rfl) y
theorem cover0_6 (p0 : Vec F S400x256 .bf16) (y : S400x256.Idx) :
    ∃ pc ∈ ([⟨rO0, p0⟩] : List (View.Piece (Elt F) S400x256 .bf16)), y ∈ pc.1.set :=
  View.cover_of_tiled [⟨rO0, p0⟩] S400x256.size (by rfl) y
theorem cover0_s (p0 : Vec F S10000x256 .bf16) (y : S10000x256.Idx) :
    ∃ pc ∈ ([⟨rX0, p0⟩] : List (View.Piece (Elt F) S10000x256 .bf16)), y ∈ pc.1.set :=
  View.cover_of_tiled [⟨rX0, p0⟩] S10000x256.size (by rfl) y

/-- The zero offsets, however spelt. -/
theorem hz2 : (![0, 0] : Fin S10000x256.rank → Nat) = fun _ => 0 := by
  funext a; match a with | ⟨0, _⟩ => rfl | ⟨1, _⟩ => rfl

set_option maxHeartbeats 4000000 in
/-- AT THE FIRST POINT the body on whole staging memrefs — the inputs' at contents `x·`, the outputs' and the scratch at
    anything — runs to the continuation with the inputs as they were, the scratch at `sval0` of the `x` and `W₁` blocks and the
    outputs at `out0_5`, `out0_6` read over that scratch value. -/
theorem sound_kernel0_first (c : Dev nD) (E : Set ℕ) (i : grid0.Coords) (hc : cond0 i)
    (arg1 : Memref sig .tc .vmem S10000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x256 .f32) (harg4 : arg4.IsWhole)
    (arg5 : Memref sig .tc .vmem S400x10000 .f32) (harg5 : arg5.IsWhole) (arg6 : Memref sig .tc .vmem S400x10000 .bf16) (harg6 : arg6.IsWhole)
    (arg7 : Memref sig .tc .vmem S400x256 .bf16) (harg7 : arg7.IsWhole) (arg8 : Memref sig .tc .vmem S10000x256 .bf16) (harg8 : arg8.IsWhole)
    (x0 : Vec F S10000x256 .f32) (x1 : Vec F S256x256 .f32) (x2 : Vec F S1x256 .f32) (x3 : Vec F S256x256 .f32) (x4 : Vec F S400x10000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x4) ∗ owns (c : Thread nD τ) arg7 fullShare (out0_6 x2 x3 x4 (sval0 x0 x1))
            ∗ owns (c : Thread nD τ) arg8 fullShare (sval0 x0 x1)) -∗ K ⟨⟩))
      ⊢ wp frame (wpE (defs₀ (F := F)) Variants.none c none) E (cc0__first_kernel i arg1 harg1 arg2 harg2 arg3 harg3 arg4 harg4 arg5 harg5 arg6 harg6 arg7 harg7 arg8 harg8) K := by
  simp only [cc0__first_kernel_eq_skeleton]; unfold cc0__first_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d8, %f8, -, H8⟩, Hk⟩
  subst hf0; subst hf1; subst hf2; subst hf3; subst hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    sl_unfold_run_names
    refine (View.read_writes_eq_canon _ _ _ (cover0_6 _)).trans ?_
    unfold out0_6 sval0
    rw [View.readCov_unit_zero _ hz2]
    rfl
  iexists _; isplitr
  swap; · iexact H8
  ipureintro
  sl_unfold_run_names
  exact (View.read_writes_eq_canon _ _ _ (cover0_s _)).trans (View.canon_unit_zero hz2 _ _)

set_option maxHeartbeats 4000000 in
/-- AT ANY LATER POINT the body, the scratch at contents `s`, runs to the continuation with the inputs and the scratch as they
    were and the outputs at `out0_5`, `out0_6` read over `s`. -/
theorem sound_kernel0_rest (c : Dev nD) (E : Set ℕ) (i : grid0.Coords) (hc : ¬cond0 i)
    (arg1 : Memref sig .tc .vmem S10000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x256 .f32) (harg4 : arg4.IsWhole)
    (arg5 : Memref sig .tc .vmem S400x10000 .f32) (harg5 : arg5.IsWhole) (arg6 : Memref sig .tc .vmem S400x10000 .bf16) (harg6 : arg6.IsWhole)
    (arg7 : Memref sig .tc .vmem S400x256 .bf16) (harg7 : arg7.IsWhole) (arg8 : Memref sig .tc .vmem S10000x256 .bf16) (harg8 : arg8.IsWhole)
    (x0 : Vec F S10000x256 .f32) (x1 : Vec F S256x256 .f32) (x2 : Vec F S1x256 .f32) (x3 : Vec F S256x256 .f32) (x4 : Vec F S400x10000 .f32) (s : Vec F S10000x256 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ owns (c : Thread nD τ) arg8 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x4) ∗ owns (c : Thread nD τ) arg7 fullShare (out0_6 x2 x3 x4 s)
            ∗ owns (c : Thread nD τ) arg8 fullShare s) -∗ K ⟨⟩))
      ⊢ wp frame (wpE (defs₀ (F := F)) Variants.none c none) E (cc0__first_kernel i arg1 harg1 arg2 harg2 arg3 harg3 arg4 harg4 arg5 harg5 arg6 harg6 arg7 harg7 arg8 harg8) K := by
  simp only [cc0__first_kernel_eq_skeleton]; unfold cc0__first_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f8, %hf8, H8⟩, Hk⟩
  subst hf0; subst hf1; subst hf2; subst hf3; subst hf4; subst hf8
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    refine (View.read_writes_eq_canon _ _ _ (cover0_6 _)).trans ?_
    unfold out0_6
    rw [← View.ld_unit_zero (S := S10000x256) hz2 inb_S10000x256_S10000x256_0_0 (arg8.view.read (Elt F) f8)]
    rfl
  iexists f8; isplitr; · ipureintro; rfl
  iexact H8

/-! ## The invariant carried from point to point -/

/-- The grid's first point. -/
def t00 : Fin cfg0.N := ⟨0, by rw [show cfg0.N = 25 from N_0]; decide⟩

/-- The first support matrix as the first point computes it: `sval0` of the `x` and `W₁` blocks at that point. -/
def supp0 (c : Dev nD) : Vec F S10000x256 .bf16 := sval0 (iblk0 V c 0 t00) (iblk0 V c 1 t00)

/-- The core's scoped buffers that are no staging buffer of this region are the scratch, at some contents, beside the
    others. -/
theorem scoped0_split (c : Dev nD) : ∃ T : sProp 𝕄,
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ T) :=
  ⟨_, scopedRest0_eq c⟩

/-- The scoped buffers beside the scratch. -/
def others0 (c : Dev nD) : sProp 𝕄 := Classical.choose (scoped0_split (F := F) c)

theorem scopedRest0_scratch (c : Dev nD) :
    (Pipeline.scopedRest (Ix := Unit) (Name := ℕ) (U := UR sig nD τ) (Lvl := ℕ) (Val := Elt F) spec0 c : sProp 𝕄)
      = iprop((∃ d, owns (c : Thread nD τ) (scM0 : Memref sig .tc .vmem S10000x256 .bf16) fullShare d) ∗ others0 (F := F) c) := by
  rw [Classical.choose_spec (scoped0_split (F := F) c)]; simp only [scM0, owns_whole]; rfl

/-- The region's invariant before position `n`: before the first point the scoped rest and the generator register, the
    scratch at anything; afterwards the same with the scratch at the first support matrix. -/
def inv0 (c : Dev nD) : ℕ → sProp 𝕄
  | 0 => Pipeline.ΦA spec0 c
  | _ + 1 => iprop(owns (c : Thread nD τ) (scM0 : Memref sig .tc .vmem S10000x256 .bf16) fullShare (supp0 V c) ∗ others0 (F := F) c ∗ (∃ r, prngReg c r))

theorem inv0_pos (c : Dev nD) (n : ℕ) (hn : n ≠ 0) :
    inv0 V c n = iprop(owns (c : Thread nD τ) (scM0 : Memref sig .tc .vmem S10000x256 .bf16) fullShare (supp0 V c) ∗ others0 (F := F) c ∗ (∃ r, prngReg c r)) := by
  cases n with
  | zero => exact absurd rfl hn
  | succ n => rfl

theorem PhiA0_eq (c : Dev nD) :
    (Pipeline.ΦA spec0 c : sProp 𝕄)
      = iprop(((∃ d, owns (c : Thread nD τ) (scM0 : Memref sig .tc .vmem S10000x256 .bf16) fullShare d) ∗ others0 (F := F) c) ∗ (∃ r, prngReg c r)) := by
  unfold Pipeline.ΦA; rw [scopedRest0_scratch]

/-! ## The pipeline's proof data -/

/-- The proof data of pipeline 0 on core `c`: the arrays as the region finds them; after the body at point `t` each input's
    buffer at its block, the adjacency copy's at `out0_5` of the adjacency block and the next support's at `out0_6` of the
    point's blocks read over the first support matrix; the invariant `inv0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 4 t)
    | ⟨6, _⟩ => out0_6 (iblk0 V c 2 t) (iblk0 V c 3 t) (iblk0 V c 4 t) (supp0 V c)
  Φ t := inv0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 4 t) := by dsimp only [dat0]
theorem after0_6 (c : Dev nD) (t : Fin cfg0.N) :
    (dat0 V c).after 6 t = out0_6 (iblk0 V c 2 t) (iblk0 V c 3 t) (iblk0 V c 4 t) (supp0 V c) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point: the inputs' memrefs hold their blocks; at the first point the invariant hands the scratch over at
    anything and takes it back at the first support matrix; at a later point it hands it over at the first support matrix
    and takes it back unchanged; the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = inv0 V c (t.val + 1) from rfl,
    show (dat0 V c).Φ t.castSucc = inv0 V c t.val from rfl,
    inv0_pos V c (t.val + 1) (Nat.succ_ne_zero _),
    after0_0, after0_1, after0_2, after0_3, after0_4, after0_5, after0_6]
  by_cases hz : t.val = 0
  · have ht : t = t00 := Fin.ext hz
    rw [hz, show inv0 V c 0 = Pipeline.ΦA spec0 c from rfl, PhiA0_eq]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_first c Set.univ (grid0.coords t) ((hcond0 t).mpr hz) _ _ _ _ _ _ _ _ _ _ _ _ _ _ _ _
      (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    rw [show supp0 V c = sval0 (iblk0 V c 0 t) (iblk0 V c 1 t) from by rw [ht]; rfl]
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [inv0_pos V c t.val hz]
    iintro ⟨⟨HS, Hoth, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_rest c Set.univ (grid0.coords t) (fun h => hz ((hcond0 t).mp h)) _ _ _ _ _ _ _ _ _ _ _ _ _ _ _ _
      (iblk0 V c 0 t) (iblk0 V c 1 t) (iblk0 V c 2 t) (iblk0 V c 3 t) (iblk0 V c 4 t) (supp0 V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Pipeline.ΦA spec0 c from rfl]

/-- After the last point the invariant gives the scoped rest back: what the scratch holds is forgotten. -/
theorem hout0 (c : Dev nD) : (dat0 V c).Φ (Fin.last cfg0.N) ⊢ Pipeline.ΦA spec0 c := by
  rw [show (dat0 V c).Φ (Fin.last cfg0.N) = inv0 V c (Fin.last cfg0.N).val from rfl,
    inv0_pos V c _ (by rw [Fin.val_last, show cfg0.N = 25 from N_0]; decide), PhiA0_eq]
  iintro ⟨HS, Hoth, Hg⟩
  isplitl [HS Hoth]
  · isplitl [HS]; · iexists _; iexact HS
    iexact Hoth
  iexact Hg

end Cert.KernelIdeal.Hand

end
-- ==== Proof.IdealRegion1.lean ====
/-
  Region 1: one row-tile of  max (A · s + b) 0 · W  per grid point.

  The pipeline stages five windows: the support matrix `s`, the bias row `b` and the next weight matrix `W` whole (the same
  block at every point), the adjacency's row tile of 1000 rows, and the output's row tile. The body loads the four input
  blocks whole and stores one value into the output block, so after the body the output's staging buffer holds that value
  of the four input blocks and the inputs' buffers are as they were. Stated at any contents `V` of the buffers when the
  region is entered.
-/
import proofs.«146984_g21294447854208_cont_8to1_547_18_alg».proof.Proof.Gen.KernelIdeal.Launch
import proofs.«146984_g21294447854208_cont_8to1_547_18_alg».proof.Proof.Gen.KernelIdeal.Skeleton
import proofs.«146984_g21294447854208_cont_8to1_547_18_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or kept it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the pipeline fetched it there or kept it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the pipeline fetched it there or kept it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the pipeline fetched it there or kept it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body reads and writes. -/
abbrev rS1 : Rect S10000x256 := Rect.unit (s := S10000x256) ![0, 0] S10000x256.size inb_S10000x256_S10000x256_0_0
abbrev rB1 : Rect S1x256 := Rect.unit (s := S1x256) ![0, 0] S1x256.size inb_S1x256_S1x256_0_0
abbrev rW1 : Rect S256x256 := Rect.unit (s := S256x256) ![0, 0] S256x256.size inb_S256x256_S256x256_0_0
abbrev rA1 : Rect S1000x10000 := Rect.unit (s := S1000x10000) ![0, 0] S1000x10000.size inb_S1000x10000_S1000x10000_0_0
abbrev rO1 : Rect S1000x256 := Rect.unit (s := S1000x256) ![0, 0] S1000x256.size inb_S1000x256_S1000x256_0_0

/-- What the body leaves in the output's staging buffer: its one store, of the payload of the four loaded blocks. -/
def out1_4 (x0 : Vec F S10000x256 .bf16) (x1 : Vec F S1x256 .f32) (x2 : Vec F S256x256 .f32) (x3 : Vec F S1000x10000 .bf16) : Vec F S1000x256 .bf16 :=
  View.canon [⟨rO1, k1_pay1 (View.ld x3 rA1) (View.ld x0 rS1) (View.ld x1 rB1) (View.ld x2 rW1)⟩]

/-- The one store covers the output block. -/
theorem cover1_4 (p0 : Vec F S1000x256 .bf16) (y : S1000x256.Idx) :
    ∃ pc ∈ ([⟨rO1, p0⟩] : List (View.Piece (Elt F) S1000x256 .bf16)), y ∈ pc.1.set :=
  View.cover_of_tiled [⟨rO1, p0⟩] S1000x256.size (by rfl) y

set_option maxHeartbeats 4000000 in
/-- The body on whole staging memrefs, the inputs' at contents `x·` and the output's at anything, runs to the continuation
    with the inputs as they were and the output at `out1_4` of them. -/
theorem sound_kernel1 (c : Dev nD) (E : Set ℕ) (i : grid1.Coords)
    (arg1 : Memref sig .tc .vmem S10000x256 .bf16) (harg1 : arg1.IsWhole) (arg2 : Memref sig .tc .vmem S1x256 .f32) (harg2 : arg2.IsWhole)
    (arg3 : Memref sig .tc .vmem S256x256 .f32) (harg3 : arg3.IsWhole) (arg4 : Memref sig .tc .vmem S1000x10000 .bf16) (harg4 : arg4.IsWhole)
    (arg5 : Memref sig .tc .vmem S1000x256 .bf16) (harg5 : arg5.IsWhole)
    (x0 : Vec F S10000x256 .bf16) (x1 : Vec F S1x256 .f32) (x2 : Vec F S256x256 .f32) (x3 : Vec F S1000x10000 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__mid_kernel i arg1 harg1 arg2 harg2 arg3 harg3 arg4 harg4 arg5 harg5) K := by
  simp only [cc1__mid_kernel_eq_skeleton]; unfold cc1__mid_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of pipeline 1 on core `c`: the arrays as the region finds them; after the body at point `t` each input's
    buffer at its block and the output's at `out1_4` of the input blocks; the scoped rest and the generator register ride
    along untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRegion2.lean ====
/-
  Region 2: one row-tile of  max (A · s + b) 0 · W  per grid point.

  The pipeline stages five windows: the support matrix `s`, the bias row `b` and the next weight matrix `W` whole (the same
  block at every point), the adjacency's row tile of 1000 rows, and the output's row tile. The body loads the four input
  blocks whole and stores one value into the output block, so after the body the output's staging buffer holds that value
  of the four input blocks and the inputs' buffers are as they were. Stated at any contents `V` of the buffers when the
  region is entered.
-/
import proofs.«146984_g21294447854208_cont_8to1_547_18_alg».proof.Proof.Gen.KernelIdeal.Launch
import proofs.«146984_g21294447854208_cont_8to1_547_18_alg».proof.Proof.Gen.KernelIdeal.Skeleton
import proofs.«146984_g21294447854208_cont_8to1_547_18_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there or kept it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the pipeline fetched it there or kept it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the pipeline fetched it there or kept it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the pipeline fetched it there or kept it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body reads and writes. -/
abbrev rS2 : Rect S10000x256 := Rect.unit (s := S10000x256) ![0, 0] S10000x256.size inb_S10000x256_S10000x256_0_0
abbrev rB2 : Rect S1x256 := Rect.unit (s := S1x256) ![0, 0] S1x256.size inb_S1x256_S1x256_0_0
abbrev rW2 : Rect S256x256 := Rect.unit (s := S256x256) ![0, 0] S256x256.size inb_S256x256_S256x256_0_0
abbrev rA2 : Rect S1000x10000 := Rect.unit (s := S1000x10000) ![0, 0] S1000x10000.size inb_S1000x10000_S1000x10000_0_0
abbrev rO2 : Rect S1000x256 := Rect.unit (s := S1000x256) ![0, 0] S1000x256.size inb_S1000x256_S1000x256_0_0

/-- What the body leaves in the output's staging buffer: its one store, of the payload of the four loaded blocks. -/
def out2_4 (x0 : Vec F S10000x256 .bf16) (x1 : Vec F S1x256 .f32) (x2 : Vec F S256x256 .f32) (x3 : Vec F S1000x10000 .bf16) : Vec F S1000x256 .bf16 :=
  View.canon [⟨rO2, k2_pay1 (View.ld x3 rA2) (View.ld x0 rS2) (View.ld x1 rB2) (View.ld x2 rW2)⟩]

/-- The one store covers the output block. -/
theorem cover2_4 (p0 : Vec F S1000x256 .bf16) (y : S1000x256.Idx) :
    ∃ pc ∈ ([⟨rO2, p0⟩] : List (View.Piece (Elt F) S1000x256 .bf16)), y ∈ pc.1.set :=
  View.cover_of_tiled [⟨rO2, p0⟩] S1000x256.size (by rfl) y

set_option maxHeartbeats 4000000 in
/-- The body on whole staging memrefs, the inputs' at contents `x·` and the output's at anything, runs to the continuation
    with the inputs as they were and the output at `out2_4` of them. -/
theorem sound_kernel2 (c : Dev nD) (E : Set ℕ) (i : grid2.Coords)
    (arg1 : Memref sig .tc .vmem S10000x256 .bf16) (harg1 : arg1.IsWhole) (arg2 : Memref sig .tc .vmem S1x256 .f32) (harg2 : arg2.IsWhole)
    (arg3 : Memref sig .tc .vmem S256x256 .f32) (harg3 : arg3.IsWhole) (arg4 : Memref sig .tc .vmem S1000x10000 .bf16) (harg4 : arg4.IsWhole)
    (arg5 : Memref sig .tc .vmem S1000x256 .bf16) (harg5 : arg5.IsWhole)
    (x0 : Vec F S10000x256 .bf16) (x1 : Vec F S1x256 .f32) (x2 : Vec F S256x256 .f32) (x3 : Vec F S1000x10000 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__mid_kernel i arg1 harg1 arg2 harg2 arg3 harg3 arg4 harg4 arg5 harg5) K := by
  simp only [cc2__mid_kernel_eq_skeleton]; unfold cc2__mid_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of pipeline 2 on core `c`: the arrays as the region finds them; after the body at point `t` each input's
    buffer at its block and the output's at `out2_4` of the input blocks; the scoped rest and the generator register ride
    along untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealRegion3.lean ====
/-
  Region 3: one row-tile of  max (A · s + b) 0  per grid point, the network's result.

  Four windows: the support matrix `s` and the bias row `b` whole (the same block at every point), the adjacency's row tile
  of 1000 rows, and the output's row tile. The body loads the three input blocks whole and stores one value into the
  output block. Stated at any contents `V` of the buffers when the region is entered.
-/
import proofs.«146984_g21294447854208_cont_8to1_547_18_alg».proof.Proof.Gen.KernelIdeal.Launch
import proofs.«146984_g21294447854208_cont_8to1_547_18_alg».proof.Proof.Gen.KernelIdeal.Skeleton
import proofs.«146984_g21294447854208_cont_8to1_547_18_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the pipeline fetched it there or kept it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether the pipeline fetched it there or kept it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether the pipeline fetched it there or kept it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body reads and writes. -/
abbrev rS3 : Rect S10000x256 := Rect.unit (s := S10000x256) ![0, 0] S10000x256.size inb_S10000x256_S10000x256_0_0
abbrev rB3 : Rect S1x256 := Rect.unit (s := S1x256) ![0, 0] S1x256.size inb_S1x256_S1x256_0_0
abbrev rA3 : Rect S1000x10000 := Rect.unit (s := S1000x10000) ![0, 0] S1000x10000.size inb_S1000x10000_S1000x10000_0_0
abbrev rO3 : Rect S1000x256 := Rect.unit (s := S1000x256) ![0, 0] S1000x256.size inb_S1000x256_S1000x256_0_0

/-- What the body leaves in the output's staging buffer: its one store, of the payload of the three loaded blocks. -/
def out3_3 (x0 : Vec F S10000x256 .bf16) (x1 : Vec F S1x256 .f32) (x2 : Vec F S1000x10000 .bf16) : Vec F S1000x256 .f32 :=
  View.canon [⟨rO3, k3_pay1 (View.ld x2 rA3) (View.ld x0 rS3) (View.ld x1 rB3)⟩]

/-- The one store covers the output block. -/
theorem cover3_3 (p0 : Vec F S1000x256 .f32) (y : S1000x256.Idx) :
    ∃ pc ∈ ([⟨rO3, p0⟩] : List (View.Piece (Elt F) S1000x256 .f32)), y ∈ pc.1.set :=
  View.cover_of_tiled [⟨rO3, p0⟩] S1000x256.size (by rfl) y

set_option maxHeartbeats 4000000 in
/-- The body on whole staging memrefs, the inputs' at contents `x·` and the output's at anything, runs to the continuation
    with the inputs as they were and the output at `out3_3` of them. -/
theorem sound_kernel3 (c : Dev nD) (E : Set ℕ) (i : grid3.Coords)
    (arg1 : Memref sig .tc .vmem S10000x256 .bf16) (harg1 : arg1.IsWhole) (arg2 : Memref sig .tc .vmem S1x256 .f32) (harg2 : arg2.IsWhole)
    (arg3 : Memref sig .tc .vmem S1000x10000 .bf16) (harg3 : arg3.IsWhole)
    (arg4 : Memref sig .tc .vmem S1000x256 .f32) (harg4 : arg4.IsWhole)
    (x0 : Vec F S10000x256 .bf16) (x1 : Vec F S1x256 .f32) (x2 : Vec F S1000x10000 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__last_kernel i arg1 harg1 arg2 harg2 arg3 harg3 arg4 harg4) K := by
  simp only [cc3__last_kernel_eq_skeleton]; unfold cc3__last_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of pipeline 3 on core `c`: the arrays as the region finds them; after the body at point `t` each input's
    buffer at its block and the output's at `out3_3` of the input blocks; the scoped rest and the generator register ride
    along untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.IdealRun.lean ====
/-
  The whole run: @main is four stretches of host operations (each reshapes a bias vector into a row) alternating with the
  four kernel regions. The contents of the core's unscoped buffers are followed from the launch through every boundary —
  a host stretch applies its operations, a region replaces its windows' arrays by what its pipeline leaves and keeps
  every other buffer — and the run ends with every unscoped buffer at the last boundary's contents.
-/
import proofs.«146984_g21294447854208_cont_8to1_547_18_alg».proof.Proof.IdealRegion0
import proofs.«146984_g21294447854208_cont_8to1_547_18_alg».proof.Proof.IdealRegion1
import proofs.«146984_g21294447854208_cont_8to1_547_18_alg».proof.Proof.IdealRegion2
import proofs.«146984_g21294447854208_cont_8to1_547_18_alg».proof.Proof.IdealRegion3
import proofs.«146984_g21294447854208_cont_8to1_547_18_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)

/-- After host stretch 0 (region 0's entry). -/
abbrev B1 : Dev nD → Valuation τ sig (Elt F) := fun c => StableHlo.after hostOps0 (B0 m ρ c)
/-- The same read at the TensorCore's references. -/
abbrev U1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (dat0 (U1 m ρ) c).arrAt w cfg0.N
theorem B2_arr (c : Dev nD) (w : Fin cfg0.W) :
    B2 m ρ c (Proc.devRef .tc (Pipeline.arrRef spec0 w)) = (dat0 (U1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev U2 : (c : Dev nD) → (b : Ref sig .tc) → Buf (Elt F) ((c : Thread nD τ).loc b) := fun c b => B2 m ρ c b
theorem hF0 (c : Dev nD) (w : Fin cfg0.W) : (dat0 (U1 m ρ) c).arrAt w cfg0.N = U2 m ρ c (Pipeline.arrRef spec0 w) :=
  (B2_arr m ρ c w).symm
theorem hrest0 (c : Dev nD) : ∀ b, b ∉ Finset.univ.image (Pipeline.arrRef spec0) → U2 m ρ c b = U1 m ρ c b :=
  fun b hb => B2_of_ne m ρ c b fun w e => hb (Finset.mem_image.mpr ⟨w, Finset.mem_univ _, e⟩)

/-- After host stretch 1 (region 1's entry). -/
abbrev B3 : Dev nD → Valuation τ sig (Elt F) := fun c => StableHlo.after hostOps1 (B2 m ρ c)
/-- The same read at the TensorCore's references. -/
abbrev U3 : (c : Dev nD) → (b : Ref sig .tc) → Buf (Elt F) ((c : Thread nD τ).loc b) := fun c b => B3 m ρ c b
/-- At region 1's exit: its arrays at what the pipeline leaves, every other buffer as entered. -/
def B4 (c : Dev nD) : Valuation τ sig (Elt F) :=
  Pipeline.withArrays spec1 c (B3 m ρ c) fun w => (dat1 (U3 m ρ) c).arrAt w cfg1.N
theorem B4_arr (c : Dev nD) (w : Fin cfg1.W) :
    B4 m ρ c (Proc.devRef .tc (Pipeline.arrRef spec1 w)) = (dat1 (U3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev U4 : (c : Dev nD) → (b : Ref sig .tc) → Buf (Elt F) ((c : Thread nD τ).loc b) := fun c b => B4 m ρ c b
theorem hF1 (c : Dev nD) (w : Fin cfg1.W) : (dat1 (U3 m ρ) c).arrAt w cfg1.N = U4 m ρ c (Pipeline.arrRef spec1 w) :=
  (B4_arr m ρ c w).symm
theorem hrest1 (c : Dev nD) : ∀ b, b ∉ Finset.univ.image (Pipeline.arrRef spec1) → U4 m ρ c b = U3 m ρ c b :=
  fun b hb => B4_of_ne m ρ c b fun w e => hb (Finset.mem_image.mpr ⟨w, Finset.mem_univ _, e⟩)

/-- After host stretch 2 (region 2's entry). -/
abbrev B5 : Dev nD → Valuation τ sig (Elt F) := fun c => StableHlo.after hostOps2 (B4 m ρ c)
/-- The same read at the TensorCore's references. -/
abbrev U5 : (c : Dev nD) → (b : Ref sig .tc) → Buf (Elt F) ((c : Thread nD τ).loc b) := fun c b => B5 m ρ c b
/-- At region 2's exit: its arrays at what the pipeline leaves, every other buffer as entered. -/
def B6 (c : Dev nD) : Valuation τ sig (Elt F) :=
  Pipeline.withArrays spec2 c (B5 m ρ c) fun w => (dat2 (U5 m ρ) c).arrAt w cfg2.N
theorem B6_arr (c : Dev nD) (w : Fin cfg2.W) :
    B6 m ρ c (Proc.devRef .tc (Pipeline.arrRef spec2 w)) = (dat2 (U5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev U6 : (c : Dev nD) → (b : Ref sig .tc) → Buf (Elt F) ((c : Thread nD τ).loc b) := fun c b => B6 m ρ c b
theorem hF2 (c : Dev nD) (w : Fin cfg2.W) : (dat2 (U5 m ρ) c).arrAt w cfg2.N = U6 m ρ c (Pipeline.arrRef spec2 w) :=
  (B6_arr m ρ c w).symm
theorem hrest2 (c : Dev nD) : ∀ b, b ∉ Finset.univ.image (Pipeline.arrRef spec2) → U6 m ρ c b = U5 m ρ c b :=
  fun b hb => B6_of_ne m ρ c b fun w e => hb (Finset.mem_image.mpr ⟨w, Finset.mem_univ _, e⟩)

/-- After host stretch 3 (region 3's entry). -/
abbrev B7 : Dev nD → Valuation τ sig (Elt F) := fun c => StableHlo.after hostOps3 (B6 m ρ c)
/-- The same read at the TensorCore's references. -/
abbrev U7 : (c : Dev nD) → (b : Ref sig .tc) → Buf (Elt F) ((c : Thread nD τ).loc b) := fun c b => B7 m ρ c b
/-- At region 3's exit: its arrays at what the pipeline leaves, every other buffer as entered. -/
def B8 (c : Dev nD) : Valuation τ sig (Elt F) :=
  Pipeline.withArrays spec3 c (B7 m ρ c) fun w => (dat3 (U7 m ρ) c).arrAt w cfg3.N
theorem B8_arr (c : Dev nD) (w : Fin cfg3.W) :
    B8 m ρ c (Proc.devRef .tc (Pipeline.arrRef spec3 w)) = (dat3 (U7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev U8 : (c : Dev nD) → (b : Ref sig .tc) → Buf (Elt F) ((c : Thread nD τ).loc b) := fun c b => B8 m ρ c b
theorem hF3 (c : Dev nD) (w : Fin cfg3.W) : (dat3 (U7 m ρ) c).arrAt w cfg3.N = U8 m ρ c (Pipeline.arrRef spec3 w) :=
  (B8_arr m ρ c w).symm
theorem hrest3 (c : Dev nD) : ∀ b, b ∉ Finset.univ.image (Pipeline.arrRef spec3) → U8 m ρ c b = U7 m ρ c b :=
  fun b hb => B8_of_ne m ρ c b fun w e => hb (Finset.mem_image.mpr ⟨w, Finset.mem_univ _, e⟩)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (B8 m ρ c) ∗ ∃ r, prngReg c r)

/-! ## The regions as segments -/

set_option backward.isDefEq.respectTransparency.types false in
/-- Region 0 over the thread state: entered with every unscoped buffer at `B1`, left with them at `B2`; its arrays are
    split out of the unscoped buffers and put back at what the pipeline leaves; the generator register goes into the
    invariant and comes back; nothing owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (U1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `B3`, left with them at `B4`; its arrays are
    split out of the unscoped buffers and put back at what the pipeline leaves; the generator register goes into the
    invariant and comes back; nothing owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `B5`, left with them at `B6`; its arrays are
    split out of the unscoped buffers and put back at what the pipeline leaves; the generator register goes into the
    invariant and comes back; nothing owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `B7`, left with them at `B8`; its arrays are
    split out of the unscoped buffers and put back at what the pipeline leaves; the generator register goes into the
    invariant and comes back; nothing owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ L lv 3 fun _ _ => rfl
  pre c := iprop(StableHlo.held (c : Thread nD τ) (Pipeline.ucRefs τ sig) (B7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdats m ρ 3 c).Φ (Fin.last _) = Pipeline.ΦA spec3 c from rfl]
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U7 m ρ c) (U8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)),
    .region (reg3 m ρ) ]

theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m ρ c b)
    (hfin := fun c s' => by
      iintro ⟨⟨Hh, -⟩, HSI⟩
      unfold StableHlo.held
      imodintro
      iapply (pointsTo_read_all (Pipeline.ucRefs τ sig) (fun b => (((c : Thread nD τ)).1, b)) (B8 m ρ c) s')
      isplitl [Hh] <;> iassumption)
    (hQ := fun s h => h)

end Cert.KernelIdeal.Hand

end
-- ==== Proof.IdealKeep.lean ====
/-
  What no item of @main changes. A host stretch writes only the bias rows it reshapes; a region writes only its output
  windows' arrays (an input window's array is never written back, and a buffer no window stages is untouched). So a buffer
  that is neither reaches every boundary with its launch contents — in particular the ten argument arrays reach the end
  unchanged, which is the frame claim.
-/
import proofs.«146984_g21294447854208_cont_8to1_547_18_alg».proof.Proof.IdealRun
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## One item at a time -/

/-- Host stretch 0 writes only its two reshaped rows. -/
theorem hostKeep0 (c : Dev nD) (b : Ref sig .tc) (h : b ∉ hostOps0_W) :
    B1 m ρ c (Proc.devRef .tc b) = B0 m ρ c (Proc.devRef .tc b) :=
  StableHlo.after_of_writes_sub hostOps0 _ hostOps0_writes h

/-- Region 0 changes only its output arrays: an input window's array is never written back, any other buffer is bypassed. -/
theorem regKeep0 (c : Dev nD) (b : Ref sig .tc) (hb : b ∉ ([main_v2_0, main_v2_1] : List (Ref sig .tc))) :
    B2 m ρ c (Proc.devRef .tc b) = B1 m ρ c (Proc.devRef .tc b) := by
  by_cases h : ∃ w, Pipeline.arrRef spec0 w = b
  · obtain ⟨w, rfl⟩ := h
    have hin : (cfg0.win w).isOut = false := by
      fin_cases w <;> first | rfl | exact absurd (by decide) hb
    exact (B2_arr m ρ c w).trans (((dat0 (U1 m ρ) c).arrAt_in w hin _).trans (A_eq0 (U1 m ρ) c w))
  · exact B2_of_ne m ρ c b fun w e => h ⟨w, e⟩

/-- Host stretch 1 writes only its two reshaped rows. -/
theorem hostKeep1 (c : Dev nD) (b : Ref sig .tc) (h : b ∉ hostOps1_W) :
    B3 m ρ c (Proc.devRef .tc b) = B2 m ρ c (Proc.devRef .tc b) :=
  StableHlo.after_of_writes_sub hostOps1 _ hostOps1_writes h

/-- Region 1 changes only its output arrays: an input window's array is never written back, any other buffer is bypassed. -/
theorem regKeep1 (c : Dev nD) (b : Ref sig .tc) (hb : b ∉ ([main_v5] : List (Ref sig .tc))) :
    B4 m ρ c (Proc.devRef .tc b) = B3 m ρ c (Proc.devRef .tc b) := by
  by_cases h : ∃ w, Pipeline.arrRef spec1 w = b
  · obtain ⟨w, rfl⟩ := h
    have hin : (cfg1.win w).isOut = false := by
      fin_cases w <;> first | rfl | exact absurd (by decide) hb
    exact (B4_arr m ρ c w).trans (((dat1 (U3 m ρ) c).arrAt_in w hin _).trans (A_eq1 (U3 m ρ) c w))
  · exact B4_of_ne m ρ c b fun w e => h ⟨w, e⟩

/-- Host stretch 2 writes only its two reshaped rows. -/
theorem hostKeep2 (c : Dev nD) (b : Ref sig .tc) (h : b ∉ hostOps2_W) :
    B5 m ρ c (Proc.devRef .tc b) = B4 m ρ c (Proc.devRef .tc b) :=
  StableHlo.after_of_writes_sub hostOps2 _ hostOps2_writes h

/-- Region 2 changes only its output arrays: an input window's array is never written back, any other buffer is bypassed. -/
theorem regKeep2 (c : Dev nD) (b : Ref sig .tc) (hb : b ∉ ([main_v8] : List (Ref sig .tc))) :
    B6 m ρ c (Proc.devRef .tc b) = B5 m ρ c (Proc.devRef .tc b) := by
  by_cases h : ∃ w, Pipeline.arrRef spec2 w = b
  · obtain ⟨w, rfl⟩ := h
    have hin : (cfg2.win w).isOut = false := by
      fin_cases w <;> first | rfl | exact absurd (by decide) hb
    exact (B6_arr m ρ c w).trans (((dat2 (U5 m ρ) c).arrAt_in w hin _).trans (A_eq2 (U5 m ρ) c w))
  · exact B6_of_ne m ρ c b fun w e => h ⟨w, e⟩

/-- Host stretch 3 writes only its two reshaped rows. -/
theorem hostKeep3 (c : Dev nD) (b : Ref sig .tc) (h : b ∉ hostOps3_W) :
    B7 m ρ c (Proc.devRef .tc b) = B6 m ρ c (Proc.devRef .tc b) :=
  StableHlo.after_of_writes_sub hostOps3 _ hostOps3_writes h

/-- Region 3 changes only its output arrays: an input window's array is never written back, any other buffer is bypassed. -/
theorem regKeep3 (c : Dev nD) (b : Ref sig .tc) (hb : b ∉ ([main_v11] : List (Ref sig .tc))) :
    B8 m ρ c (Proc.devRef .tc b) = B7 m ρ c (Proc.devRef .tc b) := by
  by_cases h : ∃ w, Pipeline.arrRef spec3 w = b
  · obtain ⟨w, rfl⟩ := h
    have hin : (cfg3.win w).isOut = false := by
      fin_cases w <;> first | rfl | exact absurd (by decide) hb
    exact (B8_arr m ρ c w).trans (((dat3 (U7 m ρ) c).arrAt_in w hin _).trans (A_eq3 (U7 m ρ) c w))
  · exact B8_of_ne m ρ c b fun w e => h ⟨w, e⟩

/-! ## From the launch to each boundary -/

variable (c : Dev nD) (b : Ref sig .tc)
theorem keepTo1 (h1 : b ∉ hostOps0_W) : B1 m ρ c (Proc.devRef .tc b) = m ((c : Thread nD τ).loc b) :=
  (hostKeep0 m ρ c b h1).trans rfl
theorem keepTo2 (h1 : b ∉ hostOps0_W) (h2 : b ∉ ([main_v2_0, main_v2_1] : List (Ref sig .tc))) :
    B2 m ρ c (Proc.devRef .tc b) = m ((c : Thread nD τ).loc b) :=
  (regKeep0 m ρ c b h2).trans (keepTo1 m ρ c b h1)
theorem keepTo3 (h1 : b ∉ hostOps0_W) (h2 : b ∉ ([main_v2_0, main_v2_1] : List (Ref sig .tc))) (h3 : b ∉ hostOps1_W) :
    B3 m ρ c (Proc.devRef .tc b) = m ((c : Thread nD τ).loc b) :=
  (hostKeep1 m ρ c b h3).trans (keepTo2 m ρ c b h1 h2)
theorem keepTo4 (h1 : b ∉ hostOps0_W) (h2 : b ∉ ([main_v2_0, main_v2_1] : List (Ref sig .tc))) (h3 : b ∉ hostOps1_W)
    (h4 : b ∉ ([main_v5] : List (Ref sig .tc))) : B4 m ρ c (Proc.devRef .tc b) = m ((c : Thread nD τ).loc b) :=
  (regKeep1 m ρ c b h4).trans (keepTo3 m ρ c b h1 h2 h3)
theorem keepTo5 (h1 : b ∉ hostOps0_W) (h2 : b ∉ ([main_v2_0, main_v2_1] : List (Ref sig .tc))) (h3 : b ∉ hostOps1_W)
    (h4 : b ∉ ([main_v5] : List (Ref sig .tc))) (h5 : b ∉ hostOps2_W) : B5 m ρ c (Proc.devRef .tc b) = m ((c : Thread nD τ).loc b) :=
  (hostKeep2 m ρ c b h5).trans (keepTo4 m ρ c b h1 h2 h3 h4)
theorem keepTo6 (h1 : b ∉ hostOps0_W) (h2 : b ∉ ([main_v2_0, main_v2_1] : List (Ref sig .tc))) (h3 : b ∉ hostOps1_W)
    (h4 : b ∉ ([main_v5] : List (Ref sig .tc))) (h5 : b ∉ hostOps2_W) (h6 : b ∉ ([main_v8] : List (Ref sig .tc))) :
    B6 m ρ c (Proc.devRef .tc b) = m ((c : Thread nD τ).loc b) :=
  (regKeep2 m ρ c b h6).trans (keepTo5 m ρ c b h1 h2 h3 h4 h5)
theorem keepTo7 (h1 : b ∉ hostOps0_W) (h2 : b ∉ ([main_v2_0, main_v2_1] : List (Ref sig .tc))) (h3 : b ∉ hostOps1_W)
    (h4 : b ∉ ([main_v5] : List (Ref sig .tc))) (h5 : b ∉ hostOps2_W) (h6 : b ∉ ([main_v8] : List (Ref sig .tc))) (h7 : b ∉ hostOps3_W) :
    B7 m ρ c (Proc.devRef .tc b) = m ((c : Thread nD τ).loc b) :=
  (hostKeep3 m ρ c b h7).trans (keepTo6 m ρ c b h1 h2 h3 h4 h5 h6)
theorem keepTo8 (h1 : b ∉ hostOps0_W) (h2 : b ∉ ([main_v2_0, main_v2_1] : List (Ref sig .tc))) (h3 : b ∉ hostOps1_W)
    (h4 : b ∉ ([main_v5] : List (Ref sig .tc))) (h5 : b ∉ hostOps2_W) (h6 : b ∉ ([main_v8] : List (Ref sig .tc))) (h7 : b ∉ hostOps3_W)
    (h8 : b ∉ ([main_v11] : List (Ref sig .tc))) : B8 m ρ c (Proc.devRef .tc b) = m ((c : Thread nD τ).loc b) :=
  (regKeep3 m ρ c b h8).trans (keepTo7 m ρ c b h1 h2 h3 h4 h5 h6 h7)

/-- An argument array is written by no item. -/
theorem arg_kept (hb : b ∈ ([main_arg0, main_arg1, main_arg2, main_arg3, main_arg4, main_arg5, main_arg6, main_arg7, main_arg8, main_arg9] : List (Ref sig .tc))) :
    B8 m ρ c (Proc.devRef .tc b) = m ((c : Thread nD τ).loc b) := by
  simp only [List.mem_cons, List.not_mem_nil, or_false] at hb
  rcases hb with rfl | rfl | rfl | rfl | rfl | rfl | rfl | rfl | rfl | rfl <;>
    exact keepTo8 m ρ c _ (by decide) (by decide) (by decide) (by decide) (by decide) (by decide) (by decide) (by decide)

/-! ## The frame claim -/

/-- Every weakly fair execution of @main terminates, nothing faulting, and the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_arg0 (by decide))).trans (arg_kept m ρ c main_arg0 (by decide)),
     (h c _ (mem_uc main_arg1 (by decide))).trans (arg_kept m ρ c main_arg1 (by decide)),
     (h c _ (mem_uc main_arg2 (by decide))).trans (arg_kept m ρ c main_arg2 (by decide)),
     (h c _ (mem_uc main_arg3 (by decide))).trans (arg_kept m ρ c main_arg3 (by decide)),
     (h c _ (mem_uc main_arg4 (by decide))).trans (arg_kept m ρ c main_arg4 (by decide)),
     (h c _ (mem_uc main_arg5 (by decide))).trans (arg_kept m ρ c main_arg5 (by decide)),
     (h c _ (mem_uc main_arg6 (by decide))).trans (arg_kept m ρ c main_arg6 (by decide)),
     (h c _ (mem_uc main_arg7 (by decide))).trans (arg_kept m ρ c main_arg7 (by decide)),
     (h c _ (mem_uc main_arg8 (by decide))).trans (arg_kept m ρ c main_arg8 (by decide)),
     (h c _ (mem_uc main_arg9 (by decide))).trans (arg_kept m ρ c main_arg9 (by decide))⟩)
    (run_all m ρ)

end Cert.KernelIdeal.Hand

end
-- ==== Proof.Spec.lean ====
/-
  The function both programs compute, as one expression over the argument arrays.

  A graph-convolution step takes an adjacency matrix `A` (rows × nodes), a support matrix `s` (nodes × features) and a bias
  row `b`, and returns `max (A · s + b) 0`, entry by entry. The network is four such steps; between two steps the hidden
  matrix is multiplied by the next weight matrix to give the next support: `s₁ = x · W₁`, `hₗ = step A sₗ bₗ`,
  `sₗ₊₁ = hₗ · Wₗ₊₁`, and the result is `h₄`. Everything is over the extended reals; a product of matrices is the plain sum of
  products over the contracted axis, in that axis's order.
-/
import Idealize.ShloMosaic.PureOps.Ideal
import Idealize.ShloMosaic.Lib.ValueIdx

noncomputable section

open scoped BigOperators

namespace Cert.Gcn

open Idealize.ShloMosaic Idealize.ShloMosaic.ValueIdx

/-- A matrix of extended reals with `r` rows and `c` columns, indexed as the printed programs index a rank-2 array. -/
abbrev Mat (r c : Nat) : Type := (⟨2, ![r, c]⟩ : Shape).Idx → EReal
/-- A row of `c` extended reals. -/
abbrev Row (c : Nat) : Type := (⟨1, ![c]⟩ : Shape).Idx → EReal

/-- The matrix product: entry `(p, q)` is the sum over `k` of `A (p, k) * B (k, q)`. -/
def mm {r k c : Nat} (A : Mat r k) (B : Mat k c) : Mat r c :=
  fun i => ∑ j : Fin k, A (ix2 (i 0 : Fin r) j) * B (ix2 j (i 1 : Fin c))

/-- One graph-convolution step on a support matrix: `max (A · s + b) 0`, the bias added along the rows. -/
def step {r n c : Nat} (A : Mat r n) (s : Mat n c) (b : Row c) : Mat r c :=
  fun i => max (mm A s i + b (ix1 (i 1 : Fin c))) 0

/-- The four-layer network of the two programs, as one function of the ten argument arrays. -/
def net (x : Mat 10000 256) (adj : Mat 10000 10000) (W1 : Mat 256 256) (b1 : Row 256) (W2 : Mat 256 256) (b2 : Row 256)
    (W3 : Mat 256 256) (b3 : Row 256) (W4 : Mat 256 256) (b4 : Row 256) : Mat 10000 256 :=
  step adj (mm (step adj (mm (step adj (mm (step adj (mm x W1) b1) W2) b2) W3) b3) W4) b4

theorem mm_apply {r k c : Nat} (A : Mat r k) (B : Mat k c) (p : Fin r) (q : Fin c) :
    mm A B (ix2 p q) = ∑ j : Fin k, A (ix2 p j) * B (ix2 j q) := rfl

theorem step_apply {r n c : Nat} (A : Mat r n) (s : Mat n c) (b : Row c) (p : Fin r) (q : Fin c) :
    step A s b (ix2 p q) = max ((∑ j : Fin n, A (ix2 p j) * s (ix2 j q)) + b (ix1 q)) 0 := rfl

/-- A product's row `p` reads only row `p` of its left factor: two left factors that agree on a row give the same row. -/
theorem mm_row_congr {r r' k c : Nat} (A : Mat r k) (A' : Mat r' k) (B : Mat k c) (p : Fin r) (p' : Fin r') (q : Fin c)
    (h : ∀ j : Fin k, A (ix2 p j) = A' (ix2 p' j)) : mm A B (ix2 p q) = mm A' B (ix2 p' q) := by
  rw [mm_apply, mm_apply]; exact Finset.sum_congr rfl fun j _ => by rw [h j]

/-- The same for a step. -/
theorem step_row_congr {r r' n c : Nat} (A : Mat r n) (A' : Mat r' n) (s : Mat n c) (b : Row c) (p : Fin r) (p' : Fin r') (q : Fin c)
    (h : ∀ j : Fin n, A (ix2 p j) = A' (ix2 p' j)) : step A s b (ix2 p q) = step A' s b (ix2 p' q) := by
  rw [step_apply, step_apply]; exact congrArg (fun z => max (z + b (ix1 q)) 0) (Finset.sum_congr rfl fun j _ => by rw [h j])

end Cert.Gcn

end
-- ==== Proof.Payloads.lean ====
/-
  The values the kernel stores, read as the specification's functions.

  Each stored value is a short chain of pointwise operations around one or two matrix products into a zero accumulator.
  Over the extended reals a narrowing conversion is the identity, a cast of a shape to itself is the identity, the zero
  accumulator adds nothing, and the broadcast of the one-row bias block reads that row at the column; so the chain is the
  specification's product `mm`, its step `step`, or a product of a step, entry by entry.
-/
import proofs.«146984_g21294447854208_cont_8to1_547_18_alg».proof.Proof.Spec
import proofs.«146984_g21294447854208_cont_8to1_547_18_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Cert.Gcn Idealize.ShloMosaic Idealize.ShloMosaic.ValueIdx

/-- A rows-by-inner times inner-by-columns product into the zero accumulator is the matrix product: the contraction index
    is its one coordinate, the left operand is read at (row, coordinate) and the right at (coordinate, column). -/
theorem matmul_plain_zero {M K N : Nat} {φ₁ φ₂ : FTy} (prec : Option ContractPrecision)
    (A : FVec Ideal ⟨2, ![M, K]⟩ φ₁) (B : FVec Ideal ⟨2, ![K, N]⟩ φ₂) :
    FloatOps.matmul (DotDims.plain M K N) prec A B (constant (F := Ideal) ⟨2, ![M, N]⟩ .f32 0x00000000#32) = mm A B := by
  funext i
  rw [Ideal.matmul_constant_zero_apply, ← Equiv.sum_comp (contrEquiv1 (DotDims.plain M K N) K rfl rfl).symm]
  unfold mm
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0 : Fin M) k :=
    funext fun a => Fin.ext (by
      match a with
      | ⟨0, _⟩ => rfl
      | ⟨1, _⟩ => exact ((DotDims.plain M K N).lhsIdx_val_of_single rfl i _).trans hk)
  have er : (DotDims.plain M K N).rhsIdx i ((contrEquiv1 (DotDims.plain M K N) K rfl rfl).symm k) = ix2 k (i 1 : Fin N) :=
    funext fun a => Fin.ext (by
      match a with
      | ⟨0, _⟩ => exact ((DotDims.plain M K N).rhsIdx_val_of_single rfl i _).trans hk
      | ⟨1, _⟩ => rfl)
  rw [el, er]
  rfl

/-- One step over `R` rows as the kernel spells it: the product into the zero accumulator, plus the one-row bias block
    broadcast down the rows, bounded below by the broadcast scalar zero. -/
theorem step_read {R : Nat} {φ₁ φ₂ : FTy} (A : FVec Ideal ⟨2, ![R, 10000]⟩ φ₁) (s : FVec Ideal ⟨2, ![10000, 256]⟩ φ₂)
    (b : FVec Ideal ⟨2, ![1, 256]⟩ .f32) (hb : (⟨2, ![1, 256]⟩ : Shape).Broadcasts ⟨2, ![R, 256]⟩) :
    (maximumf (addf (FloatOps.matmul (DotDims.plain R 10000 256) none A s (constant (F := Ideal) ⟨2, ![R, 256]⟩ .f32 0x00000000#32))
        (broadcastTo ⟨2, ![R, 256]⟩ b hb)) (broadcast ⟨2, ![R, 256]⟩ (Scalar.ofBits (F := Ideal) .f32 0x00000000#32)) : FVec Ideal ⟨2, ![R, 256]⟩ .f32)
      = step A s (fun j => b (ix2 (0 : Fin 1) (j 0))) := by
  funext i
  obtain ⟨p, q, rfl⟩ : ∃ (p : Fin R) (q : Fin 256), i = ix2 p q := ⟨i 0, i 1, eq_ix2 i⟩
  rw [maximumf_apply, addf_apply, broadcast_apply, matmul_plain_zero, broadcastTo_1b_ab_apply, step_apply, mm_apply]
  exact congrArg (fun z => max ((∑ j : Fin 10000, A (ix2 p j) * s (ix2 j q)) + b (ix2 (0 : Fin 1) q)) z) Ideal.ofBits_zero_f32

/-- The first support: the features times the first weight matrix. -/
theorem first_support (x : Vec Ideal S10000x256 .f32) (W : Vec Ideal S256x256 .f32) : k0_pay1 (F := Ideal) x W = mm x W := by
  unfold k0_pay1
  show shapeCast S10000x256 _ _ = _
  rw [shapeCast_self]
  exact matmul_plain_zero (φ₁ := .bf16) (φ₂ := .bf16) none x W

/-- The adjacency block is copied unchanged. -/
theorem adj_copy (a : Vec Ideal S400x10000 .f32) : k0_pay2 (F := Ideal) a = a := rfl

/-- The first launch's block: one step on the block's rows, times the second weight matrix. -/
theorem first_block (a : Vec Ideal S400x10000 .f32) (s : Vec Ideal S10000x256 .bf16) (b : Vec Ideal S1x256 .f32) (W : Vec Ideal S256x256 .f32) :
    k0_pay3 (F := Ideal) a s b W = mm (step a s (fun j => b (ix2 (0 : Fin 1) (j 0)))) W := by
  unfold k0_pay3 k0_pay2
  rw [shapeCast_self]
  refine (matmul_plain_zero (φ₁ := .bf16) (φ₂ := .bf16) none _ _).trans ?_
  exact congrArg (fun h => mm h W) (step_read (φ₁ := .bf16) (φ₂ := .bf16) a s b broadcasts_S1x256_S400x256)

/-- A middle launch's block: one step on the block's rows, times the next weight matrix. -/
theorem mid_block1 (a : Vec Ideal S1000x10000 .bf16) (s : Vec Ideal S10000x256 .bf16) (b : Vec Ideal S1x256 .f32) (W : Vec Ideal S256x256 .f32) :
    k1_pay1 (F := Ideal) a s b W = mm (step a s (fun j => b (ix2 (0 : Fin 1) (j 0)))) W := by
  unfold k1_pay1
  rw [shapeCast_self, shapeCast_self, shapeCast_self]
  refine (matmul_plain_zero (φ₁ := .bf16) (φ₂ := .bf16) none _ _).trans ?_
  exact congrArg (fun h => mm h W) (step_read (φ₁ := .bf16) (φ₂ := .bf16) a s b broadcasts_S1x256_S1000x256)

/-- The other middle launch's block: the same value. -/
theorem mid_block2 (a : Vec Ideal S1000x10000 .bf16) (s : Vec Ideal S10000x256 .bf16) (b : Vec Ideal S1x256 .f32) (W : Vec Ideal S256x256 .f32) :
    k2_pay1 (F := Ideal) a s b W = mm (step a s (fun j => b (ix2 (0 : Fin 1) (j 0)))) W := by
  unfold k2_pay1
  rw [shapeCast_self, shapeCast_self, shapeCast_self]
  refine (matmul_plain_zero (φ₁ := .bf16) (φ₂ := .bf16) none _ _).trans ?_
  exact congrArg (fun h => mm h W) (step_read (φ₁ := .bf16) (φ₂ := .bf16) a s b broadcasts_S1x256_S1000x256)

/-- The last launch's block: one step on the block's rows. -/
theorem last_block (a : Vec Ideal S1000x10000 .bf16) (s : Vec Ideal S10000x256 .bf16) (b : Vec Ideal S1x256 .f32) :
    k3_pay1 (F := Ideal) a s b = step a s (fun j => b (ix2 (0 : Fin 1) (j 0))) := by
  unfold k3_pay1
  rw [shapeCast_self, shapeCast_self, shapeCast_self]
  exact step_read (φ₁ := .bf16) (φ₂ := .bf16) a s b broadcasts_S1x256_S1000x256

end Cert.KernelIdeal.Pay

end
-- ==== Proof.IdealArray0.lean ====
/-
  Region 0, from blocks to arrays.

  The region's grid has 25 points; point `t` sees rows `400 t … 400 t + 399` of the adjacency (all its columns) and writes the
  same rows of the two outputs, while the features, the two weight matrices and the bias row are seen whole at every point.
  So each block the body reads is the entering array read at "row `400 t + p`" or at the same index, the value a point writes
  back is those rows of ONE function of the entering arrays, and since the 25 row tiles cover the output arrays, each
  output array ends as that function: the adjacency itself, and  max (A · (x · W₁) + b₁) 0 · W₂.
-/
import proofs.«146984_g21294447854208_cont_8to1_547_18_alg».proof.Proof.Spec
import proofs.«146984_g21294447854208_cont_8to1_547_18_alg».proof.Proof.Payloads
import proofs.«146984_g21294447854208_cont_8to1_547_18_alg».proof.Proof.IdealRegion0
import Idealize.ShloMosaic.Lib.Pipeline.Value

set_option maxRecDepth 16384

noncomputable section

open scoped BigOperators

namespace Cert.KernelIdeal.Hand

open Cert.KernelIdeal Cert.KernelIdeal.Gen Cert.Gcn
open Idealize.ShloMosaic Idealize.ShloMosaic.ValueIdx Idealize.ShloMosaic.TcCoe
open Idealize.SL Idealize.SL.Sem
open Idealize.ShloMosaic.Pipeline (Dat)

variable (V : (c : Dev nD) → (b : Ref sig .tc) → Buf (Elt Ideal) ((c : Thread nD τ).loc b))

/-- The block indices of region 0's windows, decided over the grid: the whole-array windows stay at block (0, 0), the
    row-tile windows are at block (`t`, 0) at point `t`. -/
theorem idx0_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The features' block at any point is the features' array. -/
theorem iblk0_x (c : Dev nD) (t : Fin cfg0.N) : (iblk0 V c 0 t : Mat 10000 256) = (V c main_arg0 : Mat 10000 256) := by
  obtain ⟨e0, e1, -⟩ := idx0_facts t
  funext j
  show V c main_arg0 (((cfg0.win 0).blk t).view.emb j) = V c main_arg0 j
  refine congrArg (V c main_arg0) (funext fun a => Fin.ext ?_)
  match a with
  | ⟨0, _⟩ => show win0_0.index t (0 : Fin 2) * 10000 + 1 * (j 0).val = (j 0).val; rw [e0]; omega
  | ⟨1, _⟩ => show win0_0.index t (1 : Fin 2) * 256 + 1 * (j 1).val = (j 1).val; rw [e1]; omega

/-- The first weight matrix's block at any point is its array. -/
theorem iblk0_w1 (c : Dev nD) (t : Fin cfg0.N) : (iblk0 V c 1 t : Mat 256 256) = (V c main_arg2 : Mat 256 256) := by
  obtain ⟨-, -, e0, e1, -⟩ := idx0_facts t
  funext j
  show V c main_arg2 (((cfg0.win 1).blk t).view.emb j) = V c main_arg2 j
  refine congrArg (V c main_arg2) (funext fun a => Fin.ext ?_)
  match a with
  | ⟨0, _⟩ => show win0_1.index t (0 : Fin 2) * 256 + 1 * (j 0).val = (j 0).val; rw [e0]; omega
  | ⟨1, _⟩ => show win0_1.index t (1 : Fin 2) * 256 + 1 * (j 1).val = (j 1).val; rw [e1]; omega

/-- The bias block at any point is the one-row bias array. -/
theorem iblk0_b (c : Dev nD) (t : Fin cfg0.N) : (iblk0 V c 2 t : Mat 1 256) = (V c main_v1 : Mat 1 256) := by
  obtain ⟨-, -, -, -, e0, e1, -⟩ := idx0_facts t
  funext j
  show V c main_v1 (((cfg0.win 2).blk t).view.emb j) = V c main_v1 j
  refine congrArg (V c main_v1) (funext fun a => Fin.ext ?_)
  match a with
  | ⟨0, _⟩ => show win0_2.index t (0 : Fin 2) * 1 + 1 * (j 0).val = (j 0).val; rw [e0]; omega
  | ⟨1, _⟩ => show win0_2.index t (1 : Fin 2) * 256 + 1 * (j 1).val = (j 1).val; rw [e1]; omega

/-- The second weight matrix's block at any point is its array. -/
theorem iblk0_w2 (c : Dev nD) (t : Fin cfg0.N) : (iblk0 V c 3 t : Mat 256 256) = (V c main_arg4 : Mat 256 256) := by
  obtain ⟨-, -, -, -, -, -, e0, e1, -⟩ := idx0_facts t
  funext j
  show V c main_arg4 (((cfg0.win 3).blk t).view.emb j) = V c main_arg4 j
  refine congrArg (V c main_arg4) (funext fun a => Fin.ext ?_)
  match a with
  | ⟨0, _⟩ => show win0_3.index t (0 : Fin 2) * 256 + 1 * (j 0).val = (j 0).val; rw [e0]; omega
  | ⟨1, _⟩ => show win0_3.index t (1 : Fin 2) * 256 + 1 * (j 1).val = (j 1).val; rw [e1]; omega

/-- Row `p` of point `t`'s tile is row `400 t + p` of the array. -/
theorem row0_lt (t : Fin cfg0.N) (p : Fin 400) : t.val * 400 + p.val < 10000 := by
  have hN : cfg0.N = 25 := N_0
  have ht := t.isLt
  have hp := p.isLt
  omega

/-- The adjacency's block at point `t` is rows `400 t … 400 t + 399` of the adjacency. -/
theorem iblk0_adj (c : Dev nD) (t : Fin cfg0.N) (p : Fin 400) (k : Fin 10000) :
    (iblk0 V c 4 t : Mat 400 10000) (ix2 p k) = (V c main_arg1 : Mat 10000 10000) (ix2 (⟨t.val * 400 + p.val, row0_lt t p⟩ : Fin 10000) k) := by
  obtain ⟨-, -, -, -, -, -, -, -, e0, e1, -⟩ := idx0_facts t
  show V c main_arg1 (((cfg0.win 4).blk t).view.emb (ix2 p k)) = V c main_arg1 _
  refine congrArg (V c main_arg1) (funext fun a => Fin.ext ?_)
  match a with
  | ⟨0, _⟩ => show win0_4.index t (0 : Fin 2) * 400 + 1 * p.val = t.val * 400 + p.val; rw [e0]; omega
  | ⟨1, _⟩ => show win0_4.index t (1 : Fin 2) * 10000 + 1 * k.val = k.val; rw [e1]; omega

/-- THE FIRST SUPPORT MATRIX, which the first point leaves in the scratch, is the features times the first weight matrix. -/
theorem supp0_eq (c : Dev nD) : (supp0 (F := Ideal) V c : Mat 10000 256) = mm (V c main_arg0) (V c main_arg2) := by
  unfold supp0 sval0
  rw [View.ld_unit_zero (S := S10000x256) hz2, View.ld_unit_zero (S := S256x256) hz2]
  refine (Pay.first_support _ _).trans ?_
  rw [iblk0_x, iblk0_w1]

/-- What the body leaves in the adjacency copy's buffer is the adjacency block it read. -/
theorem out0_5_eq (x4 : Vec Ideal S400x10000 .f32) : out0_5 (F := Ideal) x4 = x4 := by
  unfold out0_5
  rw [View.canon_unit_zero hz2, View.ld_unit_zero (S := S400x10000) hz2]
  exact Pay.adj_copy x4

/-- WHAT POINT `t` WRITES BACK to the adjacency's copy is rows `400 t … 400 t + 399` of the adjacency. -/
theorem flushed0_5_eq (c : Dev nD) (t : Fin cfg0.N) :
    (dat0 (F := Ideal) V c).flushed 5 t = ((cfg0.win 5).blk t).view.read (Elt Ideal) (V c main_arg1 : Mat 10000 10000) := by
  show (cfg0.win 5).cut (grid0.coords t) ((dat0 V c).after 5 t) = _
  rw [after0_5]
  refine (congrArg ((cfg0.win 5).cut (grid0.coords t)) (out0_5_eq _)).trans ?_
  obtain ⟨-, -, -, -, -, -, -, -, e0, e1, f0, f1, -⟩ := idx0_facts t
  funext j
  show V c main_arg1 (((cfg0.win 4).blk t).view.emb j) = V c main_arg1 (((cfg0.win 5).blk t).view.emb j)
  refine congrArg (V c main_arg1) (funext fun a => Fin.ext ?_)
  match a with
  | ⟨0, _⟩ => show win0_4.index t (0 : Fin 2) * 400 + 1 * (j 0).val = win0_5.index t (0 : Fin 2) * 400 + 1 * (j 0).val; rw [e0, f0]
  | ⟨1, _⟩ => show win0_4.index t (1 : Fin 2) * 10000 + 1 * (j 1).val = win0_5.index t (1 : Fin 2) * 10000 + 1 * (j 1).val; rw [e1, f1]

/-- An index of the copy's array is in point `t`'s block iff each coordinate is in the block's range on its axis. -/
theorem mem_blk0_5 (t : Fin cfg0.N) (i : S10000x10000.Idx) :
    i ∈ ((cfg0.win 5).blk t).view.set ↔ ∀ a : Fin 2, win0_5.index t a * S400x10000.size a ≤ (i a).val ∧ (i a).val < win0_5.index t a * S400x10000.size a + S400x10000.size a := by
  show i ∈ ((View.whole main_v2_0).slice (win0_5.rect t)).set ↔ _
  rw [View.set_slice_whole, Rect.mem_set_unit]
  exact Iff.rfl

/-- The 25 row tiles cover the copy's array: row `r` is in the block of point `r / 400`. -/
theorem tiles0_5 (i : S10000x10000.Idx) : ∃ t : Fin cfg0.N, (cfg0.win 5).flush t = true ∧ i ∈ ((cfg0.win 5).blk t).view.set := by
  have hN : cfg0.N = 25 := N_0
  have hi0 : (i 0).val < 10000 := (i 0).isLt
  have hi1 : (i 1).val < 10000 := (i 1).isLt
  obtain ⟨t, ht⟩ : ∃ t : Fin cfg0.N, t.val = (i 0).val / 400 := ⟨⟨(i 0).val / 400, by rw [hN]; omega⟩, rfl⟩
  obtain ⟨-, -, -, -, -, -, -, -, -, -, f0, f1, -⟩ := idx0_facts t
  refine ⟨t, flush0_5 t, ?_⟩
  rw [mem_blk0_5]
  intro a
  match a with
  | ⟨0, _⟩ => show win0_5.index t (0 : Fin 2) * 400 ≤ (i 0).val ∧ (i 0).val < win0_5.index t (0 : Fin 2) * 400 + 400; rw [f0, ht]; omega
  | ⟨1, _⟩ => show win0_5.index t (1 : Fin 2) * 10000 ≤ (i 1).val ∧ (i 1).val < win0_5.index t (1 : Fin 2) * 10000 + 10000; rw [f1]; omega

/-- THE ADJACENCY'S COPY after the region is the adjacency. -/
theorem final0_5 (c : Dev nD) : (dat0 (F := Ideal) V c).arrAt 5 cfg0.N = (V c main_arg1 : Mat 10000 10000) :=
  (dat0 (F := Ideal) V c).arrAt_eq_of_cover 5 (V c main_arg1 : Mat 10000 10000) (fun t _ => flushed0_5_eq V c t) (tiles0_5)

/-- What the body leaves in the next support's buffer is one step on the adjacency block over the scratch's matrix, times
    the second weight block. -/
theorem out0_6_eq (x2 : Vec Ideal S1x256 .f32) (x3 : Vec Ideal S256x256 .f32) (x4 : Vec Ideal S400x10000 .f32) (s : Vec Ideal S10000x256 .bf16) :
    out0_6 (F := Ideal) x2 x3 x4 s = mm (step x4 s (fun j => x2 (ix2 (0 : Fin 1) (j 0)))) x3 := by
  unfold out0_6
  rw [View.canon_unit_zero hz2, View.ld_unit_zero (S := S400x10000) hz2, View.ld_unit_zero (S := S1x256) hz2,
    View.ld_unit_zero (S := S256x256) hz2]
  exact Pay.first_block x4 s x2 x3

/-- Row `p` of  max (A₄ · s + b) 0 · W  over a row tile `A₄` is row `P` of the same over the whole `A`, when row `p` of the
    tile is row `P` of `A`: a product's row reads only that row of its left factor. -/
theorem tile0_rows (A4 : Mat 400 10000) (A : Mat 10000 10000) (s : Mat 10000 256) (b : Row 256) (W : Mat 256 256)
    (p : Fin 400) (P : Fin 10000) (q : Fin 256) (hA : ∀ k : Fin 10000, A4 (ix2 p k) = A (ix2 P k)) :
    mm (step A4 s b) W (ix2 p q) = mm (step A s b) W (ix2 P q) :=
  mm_row_congr (step A4 s b) (step A s b) W p P q fun k => step_row_congr A4 A s b p P k hA

/-- WHAT POINT `t` WRITES BACK to the next support is rows `400 t … 400 t + 399` of  max (A · (x · W₁) + b₁) 0 · W₂. -/
theorem flushed0_6_eq (c : Dev nD) (t : Fin cfg0.N) :
    (dat0 (F := Ideal) V c).flushed 6 t = ((cfg0.win 6).blk t).view.read (Elt Ideal)
      (mm (step (V c main_arg1 : Mat 10000 10000) (mm (V c main_arg0 : Mat 10000 256) (V c main_arg2 : Mat 256 256))
        (fun j => (V c main_v1 : Mat 1 256) (ix2 (0 : Fin 1) (j 0)))) (V c main_arg4 : Mat 256 256) : Mat 10000 256) := by
  show (cfg0.win 6).cut (grid0.coords t) ((dat0 V c).after 6 t) = _
  rw [after0_6]
  refine (congrArg ((cfg0.win 6).cut (grid0.coords t)) (out0_6_eq _ _ _ _)).trans ?_
  rw [supp0_eq, iblk0_b, iblk0_w2]
  obtain ⟨-, -, -, -, -, -, -, -, -, -, -, -, g0, g1⟩ := idx0_facts t
  funext j
  obtain ⟨p, q, rfl⟩ : ∃ (p : Fin 400) (q : Fin 256), j = ix2 p q := ⟨j 0, j 1, eq_ix2 j⟩
  have hemb : ((cfg0.win 6).blk t).view.emb (ix2 p q) = ix2 (⟨t.val * 400 + p.val, row0_lt t p⟩ : Fin 10000) q :=
    funext fun a => Fin.ext (by
      match a with
      | ⟨0, _⟩ => show win0_6.index t (0 : Fin 2) * 400 + 1 * p.val = t.val * 400 + p.val; rw [g0]; omega
      | ⟨1, _⟩ => show win0_6.index t (1 : Fin 2) * 256 + 1 * q.val = q.val; rw [g1]; omega)
  refine Eq.trans ?_ (congrArg (mm (step (V c main_arg1 : Mat 10000 10000) (mm (V c main_arg0 : Mat 10000 256) (V c main_arg2 : Mat 256 256))
        (fun j => (V c main_v1 : Mat 1 256) (ix2 (0 : Fin 1) (j 0)))) (V c main_arg4 : Mat 256 256) : Mat 10000 256) hemb.symm)
  exact tile0_rows _ _ _ _ _ p _ q (fun k => iblk0_adj V c t p k)

/-- An index of the next support's array is in point `t`'s block iff each coordinate is in the block's range on its axis. -/
theorem mem_blk0_6 (t : Fin cfg0.N) (i : S10000x256.Idx) :
    i ∈ ((cfg0.win 6).blk t).view.set ↔ ∀ a : Fin 2, win0_6.index t a * S400x256.size a ≤ (i a).val ∧ (i a).val < win0_6.index t a * S400x256.size a + S400x256.size a := by
  show i ∈ ((View.whole main_v2_1).slice (win0_6.rect t)).set ↔ _
  rw [View.set_slice_whole, Rect.mem_set_unit]
  exact Iff.rfl

/-- The 25 row tiles cover the next support's array: row `r` is in the block of point `r / 400`. -/
theorem tiles0_6 (i : S10000x256.Idx) : ∃ t : Fin cfg0.N, (cfg0.win 6).flush t = true ∧ i ∈ ((cfg0.win 6).blk t).view.set := by
  have hN : cfg0.N = 25 := N_0
  have hi0 : (i 0).val < 10000 := (i 0).isLt
  have hi1 : (i 1).val < 256 := (i 1).isLt
  obtain ⟨t, ht⟩ : ∃ t : Fin cfg0.N, t.val = (i 0).val / 400 := ⟨⟨(i 0).val / 400, by rw [hN]; omega⟩, rfl⟩
  obtain ⟨-, -, -, -, -, -, -, -, -, -, -, -, g0, g1⟩ := idx0_facts t
  refine ⟨t, flush0_6 t, ?_⟩
  rw [mem_blk0_6]
  intro a
  match a with
  | ⟨0, _⟩ => show win0_6.index t (0 : Fin 2) * 400 ≤ (i 0).val ∧ (i 0).val < win0_6.index t (0 : Fin 2) * 400 + 400; rw [g0, ht]; omega
  | ⟨1, _⟩ => show win0_6.index t (1 : Fin 2) * 256 ≤ (i 1).val ∧ (i 1).val < win0_6.index t (1 : Fin 2) * 256 + 256; rw [g1]; omega

/-- THE NEXT SUPPORT MATRIX after the region is  max (A · (x · W₁) + b₁) 0 · W₂  of the entering arrays. -/
theorem final0_6 (c : Dev nD) : (dat0 (F := Ideal) V c).arrAt 6 cfg0.N
      = (mm (step (V c main_arg1) (mm (V c main_arg0) (V c main_arg2)) (fun j => V c main_v1 (ix2 (0 : Fin 1) (j 0)))) (V c main_arg4) : Mat 10000 256) :=
  (dat0 (F := Ideal) V c).arrAt_eq_of_cover 6 _ (fun t _ => flushed0_6_eq V c t) tiles0_6

end Cert.KernelIdeal.Hand

end
-- ==== Proof.IdealArray12.lean ====
/-
  Regions 1 and 2, from blocks to the array.

  In each of the two regions, at grid point `t` the output window's block is rows `1000·t … 1000·t + 999` of the output, all
  columns; the adjacency window's block is the same rows of the adjacency matrix; the support matrix, the bias row and the
  weight matrix are whole at every point. One step on a row tile of the adjacency reads only those rows, and a row of a
  product reads only that row of its left factor, so the value written back at `t` is block `t` of "one step on the whole
  arrays, times the weights"; the ten blocks tile the output (row `r` lies in block `r / 1000`), so the output ends at that
  product.
-/
import proofs.«146984_g21294447854208_cont_8to1_547_18_alg».proof.Proof.IdealRegion1
import proofs.«146984_g21294447854208_cont_8to1_547_18_alg».proof.Proof.IdealRegion2
import proofs.«146984_g21294447854208_cont_8to1_547_18_alg».proof.Proof.Payloads
import proofs.«146984_g21294447854208_cont_8to1_547_18_alg».proof.Proof.Spec
import Idealize.ShloMosaic.Lib.Pipeline.Value

set_option maxRecDepth 16384

noncomputable section

namespace Cert.KernelIdeal.Hand

open Cert.KernelIdeal Cert.KernelIdeal.Gen Cert.Gcn Idealize.ShloMosaic Idealize.ShloMosaic.ValueIdx Idealize.ShloMosaic.TcCoe

variable (V : (c : Dev nD) → (b : Ref sig .tc) → Buf (Elt Ideal) ((c : Thread nD τ).loc b))

/-! ## Region 1 -/

/-- The zero offsets of a whole-block rectangle, as the constant function. -/
theorem r1_zero_off : (![0, 0] : Fin 2 → Nat) = fun _ => 0 := funext fun a => by fin_cases a <;> rfl

/-- The block indices over the grid: the support, the bias row and the weights stay at block 0; the adjacency and the
    output move down the rows with the point and stay at column block 0. -/
theorem r1_index_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The support window's block is the whole support matrix, at every point. -/
theorem r1_support_block (c : Dev nD) (t : Fin cfg1.N) : (iblk1 V c 0 t : S10000x256.Idx → EReal) = V c main_v2_1 := by
  obtain ⟨e0, e1, -, -, -, -, -, -, -, -⟩ := r1_index_facts t
  funext y
  show V c main_v2_1 (((cfg1.win 0).blk t).view.emb y) = V c main_v2_1 y
  refine congrArg (V c main_v2_1) (funext fun a => Fin.ext ?_)
  match a with
  | ⟨0, _⟩ => show win1_0.index t (0 : Fin 2) * 10000 + 1 * (y 0).val = (y 0).val; omega
  | ⟨1, _⟩ => show win1_0.index t (1 : Fin 2) * 256 + 1 * (y 1).val = (y 1).val; omega

/-- The bias window's block is the whole bias row, at every point. -/
theorem r1_bias_block (c : Dev nD) (t : Fin cfg1.N) : (iblk1 V c 1 t : S1x256.Idx → EReal) = V c main_v4 := by
  obtain ⟨-, -, e2, e3, -, -, -, -, -, -⟩ := r1_index_facts t
  funext y
  show V c main_v4 (((cfg1.win 1).blk t).view.emb y) = V c main_v4 y
  refine congrArg (V c main_v4) (funext fun a => Fin.ext ?_)
  match a with
  | ⟨0, _⟩ => show win1_1.index t (0 : Fin 2) * 1 + 1 * (y 0).val = (y 0).val; omega
  | ⟨1, _⟩ => show win1_1.index t (1 : Fin 2) * 256 + 1 * (y 1).val = (y 1).val; omega

/-- The weight window's block is the whole weight matrix, at every point. -/
theorem r1_weight_block (c : Dev nD) (t : Fin cfg1.N) : (iblk1 V c 2 t : S256x256.Idx → EReal) = V c main_arg6 := by
  obtain ⟨-, -, -, -, e4, e5, -, -, -, -⟩ := r1_index_facts t
  funext y
  show V c main_arg6 (((cfg1.win 2).blk t).view.emb y) = V c main_arg6 y
  refine congrArg (V c main_arg6) (funext fun a => Fin.ext ?_)
  match a with
  | ⟨0, _⟩ => show win1_2.index t (0 : Fin 2) * 256 + 1 * (y 0).val = (y 0).val; omega
  | ⟨1, _⟩ => show win1_2.index t (1 : Fin 2) * 256 + 1 * (y 1).val = (y 1).val; omega

/-- Row `p` of the adjacency window's block at point `t` is row `1000·t + p` of the adjacency matrix. -/
theorem r1_adj_block (c : Dev nD) (t : Fin cfg1.N) (p : Fin 1000) (P : Fin 10000) (hP : P.val = t.val * 1000 + p.val) (j : Fin 10000) :
    (iblk1 V c 3 t : S1000x10000.Idx → EReal) (ix2 p j) = V c main_v2_0 (ix2 P j) := by
  obtain ⟨-, -, -, -, -, -, e6, e7, -, -⟩ := r1_index_facts t
  show V c main_v2_0 (((cfg1.win 3).blk t).view.emb (ix2 p j)) = V c main_v2_0 (ix2 P j)
  refine congrArg (V c main_v2_0) (funext fun a => Fin.ext ?_)
  match a with
  | ⟨0, _⟩ => show win1_3.index t (0 : Fin 2) * 1000 + 1 * p.val = P.val; omega
  | ⟨1, _⟩ => show win1_3.index t (1 : Fin 2) * 10000 + 1 * j.val = j.val; omega

/-- What point `t` writes back is block `t` of one step on the whole arrays times the weight matrix. -/
theorem r1_flushed (c : Dev nD) (t : Fin cfg1.N) :
    (dat1 (F := Ideal) V c).flushed 4 t = ((cfg1.win 4).blk t).view.read (Elt Ideal)
      (mm (step (V c main_v2_0) (V c main_v2_1) (fun j => V c main_v4 (ix2 (0 : Fin 1) (j 0)))) (V c main_arg6) : Mat 10000 256) := by
  show (cfg1.win 4).cut (grid1.coords t) ((dat1 V c).after 4 t) = _
  rw [after1_4]
  unfold out1_4
  rw [View.canon_unit_zero r1_zero_off]
  simp only [View.ld_unit_zero (S := S1000x10000) r1_zero_off, View.ld_unit_zero (S := S10000x256) r1_zero_off,
    View.ld_unit_zero (S := S1x256) r1_zero_off, View.ld_unit_zero (S := S256x256) r1_zero_off]
  rw [Pay.mid_block1, r1_support_block, r1_bias_block, r1_weight_block]
  obtain ⟨-, -, -, -, -, -, -, -, e8, e9⟩ := r1_index_facts t
  have hN : t.val < 10 := Nat.lt_of_lt_of_eq t.isLt N_1
  funext y
  have hy0 : (y 0).val < 1000 := (y 0).isLt
  have hy1 : (y 1).val < 256 := (y 1).isLt
  have eL : (cfg1.win 4).xinj (grid1.coords t) y = ix2 (⟨(y 0).val, hy0⟩ : Fin 1000) (⟨(y 1).val, hy1⟩ : Fin 256) :=
    funext fun a => by match a with | ⟨0, _⟩ => rfl | ⟨1, _⟩ => rfl
  have eR : ((cfg1.win 4).blk t).view.emb y
      = ix2 (⟨t.val * 1000 + (y 0).val, by omega⟩ : Fin 10000) (⟨(y 1).val, hy1⟩ : Fin 256) :=
    funext fun a => Fin.ext (by
      match a with
      | ⟨0, _⟩ => show win1_4.index t (0 : Fin 2) * 1000 + 1 * (y 0).val = t.val * 1000 + (y 0).val; omega
      | ⟨1, _⟩ => show win1_4.index t (1 : Fin 2) * 256 + 1 * (y 1).val = (y 1).val; omega)
  show mm (step (iblk1 V c 3 t : S1000x10000.Idx → EReal) (V c main_v2_1) (fun j => V c main_v4 (ix2 (0 : Fin 1) (j 0)))) (V c main_arg6)
      ((cfg1.win 4).xinj (grid1.coords t) y)
    = mm (step (V c main_v2_0) (V c main_v2_1) (fun j => V c main_v4 (ix2 (0 : Fin 1) (j 0)))) (V c main_arg6)
      (((cfg1.win 4).blk t).view.emb y)
  rw [eL, eR]
  exact mm_row_congr _ _ _ _ _ _ fun k => step_row_congr _ _ _ _ _ _ _ fun j => r1_adj_block V c t _ _ rfl j

/-- An index of the output is in point `t`'s block iff each coordinate is in the block's range on its axis. -/
theorem r1_mem_blk (t : Fin cfg1.N) (i : S10000x256.Idx) :
    i ∈ ((cfg1.win 4).blk t).view.set ↔ ∀ a : Fin 2, win1_4.index t a * S1000x256.size a ≤ (i a).val
      ∧ (i a).val < win1_4.index t a * S1000x256.size a + S1000x256.size a := by
  show i ∈ ((View.whole main_v5).slice (win1_4.rect t)).set ↔ _
  rw [View.set_slice_whole, Rect.mem_set_unit]
  exact Iff.rfl

/-- Every index of the output is in the block of the point its row divided by 1000 names, and every point writes back. -/
theorem r1_cover (i : S10000x256.Idx) :
    ∃ t : Fin cfg1.N, (cfg1.win 4).flush t = true ∧ i ∈ ((cfg1.win 4).blk t).view.set := by
  have hi0 : (i 0).val < 10000 := (i 0).isLt
  have hi1 : (i 1).val < 256 := (i 1).isLt
  obtain ⟨t, ht⟩ : ∃ t : Fin cfg1.N, t.val = (i 0).val / 1000 :=
    ⟨⟨(i 0).val / 1000, Nat.lt_of_lt_of_eq (show (i 0).val / 1000 < 10 by omega) N_1.symm⟩, rfl⟩
  obtain ⟨-, -, -, -, -, -, -, -, e8, e9⟩ := r1_index_facts t
  refine ⟨t, flush1_4 t, ?_⟩
  rw [r1_mem_blk]
  intro a
  match a with
  | ⟨0, _⟩ =>
    show win1_4.index t (0 : Fin 2) * 1000 ≤ (i 0).val ∧ (i 0).val < win1_4.index t (0 : Fin 2) * 1000 + 1000
    omega
  | ⟨1, _⟩ =>
    show win1_4.index t (1 : Fin 2) * 256 ≤ (i 1).val ∧ (i 1).val < win1_4.index t (1 : Fin 2) * 256 + 256
    omega

/-- The output array after the region: one step on the adjacency copy, the support and the bias row as the region found
    them, times the weight matrix. -/
theorem final1 (c : Dev nD) : (dat1 (F := Ideal) V c).arrAt 4 cfg1.N
    = (mm (step (V c main_v2_0) (V c main_v2_1) (fun j => V c main_v4 (ix2 (0 : Fin 1) (j 0)))) (V c main_arg6) : Mat 10000 256) :=
  (dat1 (F := Ideal) V c).arrAt_eq_of_cover 4 _ (fun t _ => r1_flushed V c t) r1_cover

/-! ## Region 2 -/

/-- The zero offsets of a whole-block rectangle, as the constant function. -/
theorem r2_zero_off : (![0, 0] : Fin 2 → Nat) = fun _ => 0 := funext fun a => by fin_cases a <;> rfl

/-- The block indices over the grid: the support, the bias row and the weights stay at block 0; the adjacency and the
    output move down the rows with the point and stay at column block 0. -/
theorem r2_index_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The support window's block is the whole support matrix, at every point. -/
theorem r2_support_block (c : Dev nD) (t : Fin cfg2.N) : (iblk2 V c 0 t : S10000x256.Idx → EReal) = V c main_v5 := by
  obtain ⟨e0, e1, -, -, -, -, -, -, -, -⟩ := r2_index_facts t
  funext y
  show V c main_v5 (((cfg2.win 0).blk t).view.emb y) = V c main_v5 y
  refine congrArg (V c main_v5) (funext fun a => Fin.ext ?_)
  match a with
  | ⟨0, _⟩ => show win2_0.index t (0 : Fin 2) * 10000 + 1 * (y 0).val = (y 0).val; omega
  | ⟨1, _⟩ => show win2_0.index t (1 : Fin 2) * 256 + 1 * (y 1).val = (y 1).val; omega

/-- The bias window's block is the whole bias row, at every point. -/
theorem r2_bias_block (c : Dev nD) (t : Fin cfg2.N) : (iblk2 V c 1 t : S1x256.Idx → EReal) = V c main_v7 := by
  obtain ⟨-, -, e2, e3, -, -, -, -, -, -⟩ := r2_index_facts t
  funext y
  show V c main_v7 (((cfg2.win 1).blk t).view.emb y) = V c main_v7 y
  refine congrArg (V c main_v7) (funext fun a => Fin.ext ?_)
  match a with
  | ⟨0, _⟩ => show win2_1.index t (0 : Fin 2) * 1 + 1 * (y 0).val = (y 0).val; omega
  | ⟨1, _⟩ => show win2_1.index t (1 : Fin 2) * 256 + 1 * (y 1).val = (y 1).val; omega

/-- The weight window's block is the whole weight matrix, at every point. -/
theorem r2_weight_block (c : Dev nD) (t : Fin cfg2.N) : (iblk2 V c 2 t : S256x256.Idx → EReal) = V c main_arg8 := by
  obtain ⟨-, -, -, -, e4, e5, -, -, -, -⟩ := r2_index_facts t
  funext y
  show V c main_arg8 (((cfg2.win 2).blk t).view.emb y) = V c main_arg8 y
  refine congrArg (V c main_arg8) (funext fun a => Fin.ext ?_)
  match a with
  | ⟨0, _⟩ => show win2_2.index t (0 : Fin 2) * 256 + 1 * (y 0).val = (y 0).val; omega
  | ⟨1, _⟩ => show win2_2.index t (1 : Fin 2) * 256 + 1 * (y 1).val = (y 1).val; omega

/-- Row `p` of the adjacency window's block at point `t` is row `1000·t + p` of the adjacency matrix. -/
theorem r2_adj_block (c : Dev nD) (t : Fin cfg2.N) (p : Fin 1000) (P : Fin 10000) (hP : P.val = t.val * 1000 + p.val) (j : Fin 10000) :
    (iblk2 V c 3 t : S1000x10000.Idx → EReal) (ix2 p j) = V c main_v2_0 (ix2 P j) := by
  obtain ⟨-, -, -, -, -, -, e6, e7, -, -⟩ := r2_index_facts t
  show V c main_v2_0 (((cfg2.win 3).blk t).view.emb (ix2 p j)) = V c main_v2_0 (ix2 P j)
  refine congrArg (V c main_v2_0) (funext fun a => Fin.ext ?_)
  match a with
  | ⟨0, _⟩ => show win2_3.index t (0 : Fin 2) * 1000 + 1 * p.val = P.val; omega
  | ⟨1, _⟩ => show win2_3.index t (1 : Fin 2) * 10000 + 1 * j.val = j.val; omega

/-- What point `t` writes back is block `t` of one step on the whole arrays times the weight matrix. -/
theorem r2_flushed (c : Dev nD) (t : Fin cfg2.N) :
    (dat2 (F := Ideal) V c).flushed 4 t = ((cfg2.win 4).blk t).view.read (Elt Ideal)
      (mm (step (V c main_v2_0) (V c main_v5) (fun j => V c main_v7 (ix2 (0 : Fin 1) (j 0)))) (V c main_arg8) : Mat 10000 256) := by
  show (cfg2.win 4).cut (grid2.coords t) ((dat2 V c).after 4 t) = _
  rw [after2_4]
  unfold out2_4
  rw [View.canon_unit_zero r2_zero_off]
  simp only [View.ld_unit_zero (S := S1000x10000) r2_zero_off, View.ld_unit_zero (S := S10000x256) r2_zero_off,
    View.ld_unit_zero (S := S1x256) r2_zero_off, View.ld_unit_zero (S := S256x256) r2_zero_off]
  rw [Pay.mid_block2, r2_support_block, r2_bias_block, r2_weight_block]
  obtain ⟨-, -, -, -, -, -, -, -, e8, e9⟩ := r2_index_facts t
  have hN : t.val < 10 := Nat.lt_of_lt_of_eq t.isLt N_2
  funext y
  have hy0 : (y 0).val < 1000 := (y 0).isLt
  have hy1 : (y 1).val < 256 := (y 1).isLt
  have eL : (cfg2.win 4).xinj (grid2.coords t) y = ix2 (⟨(y 0).val, hy0⟩ : Fin 1000) (⟨(y 1).val, hy1⟩ : Fin 256) :=
    funext fun a => by match a with | ⟨0, _⟩ => rfl | ⟨1, _⟩ => rfl
  have eR : ((cfg2.win 4).blk t).view.emb y
      = ix2 (⟨t.val * 1000 + (y 0).val, by omega⟩ : Fin 10000) (⟨(y 1).val, hy1⟩ : Fin 256) :=
    funext fun a => Fin.ext (by
      match a with
      | ⟨0, _⟩ => show win2_4.index t (0 : Fin 2) * 1000 + 1 * (y 0).val = t.val * 1000 + (y 0).val; omega
      | ⟨1, _⟩ => show win2_4.index t (1 : Fin 2) * 256 + 1 * (y 1).val = (y 1).val; omega)
  show mm (step (iblk2 V c 3 t : S1000x10000.Idx → EReal) (V c main_v5) (fun j => V c main_v7 (ix2 (0 : Fin 1) (j 0)))) (V c main_arg8)
      ((cfg2.win 4).xinj (grid2.coords t) y)
    = mm (step (V c main_v2_0) (V c main_v5) (fun j => V c main_v7 (ix2 (0 : Fin 1) (j 0)))) (V c main_arg8)
      (((cfg2.win 4).blk t).view.emb y)
  rw [eL, eR]
  exact mm_row_congr _ _ _ _ _ _ fun k => step_row_congr _ _ _ _ _ _ _ fun j => r2_adj_block V c t _ _ rfl j

/-- An index of the output is in point `t`'s block iff each coordinate is in the block's range on its axis. -/
theorem r2_mem_blk (t : Fin cfg2.N) (i : S10000x256.Idx) :
    i ∈ ((cfg2.win 4).blk t).view.set ↔ ∀ a : Fin 2, win2_4.index t a * S1000x256.size a ≤ (i a).val
      ∧ (i a).val < win2_4.index t a * S1000x256.size a + S1000x256.size a := by
  show i ∈ ((View.whole main_v8).slice (win2_4.rect t)).set ↔ _
  rw [View.set_slice_whole, Rect.mem_set_unit]
  exact Iff.rfl

/-- Every index of the output is in the block of the point its row divided by 1000 names, and every point writes back. -/
theorem r2_cover (i : S10000x256.Idx) :
    ∃ t : Fin cfg2.N, (cfg2.win 4).flush t = true ∧ i ∈ ((cfg2.win 4).blk t).view.set := by
  have hi0 : (i 0).val < 10000 := (i 0).isLt
  have hi1 : (i 1).val < 256 := (i 1).isLt
  obtain ⟨t, ht⟩ : ∃ t : Fin cfg2.N, t.val = (i 0).val / 1000 :=
    ⟨⟨(i 0).val / 1000, Nat.lt_of_lt_of_eq (show (i 0).val / 1000 < 10 by omega) N_2.symm⟩, rfl⟩
  obtain ⟨-, -, -, -, -, -, -, -, e8, e9⟩ := r2_index_facts t
  refine ⟨t, flush2_4 t, ?_⟩
  rw [r2_mem_blk]
  intro a
  match a with
  | ⟨0, _⟩ =>
    show win2_4.index t (0 : Fin 2) * 1000 ≤ (i 0).val ∧ (i 0).val < win2_4.index t (0 : Fin 2) * 1000 + 1000
    omega
  | ⟨1, _⟩ =>
    show win2_4.index t (1 : Fin 2) * 256 ≤ (i 1).val ∧ (i 1).val < win2_4.index t (1 : Fin 2) * 256 + 256
    omega

/-- The output array after the region: one step on the adjacency copy, the support and the bias row as the region found
    them, times the weight matrix. -/
theorem final2 (c : Dev nD) : (dat2 (F := Ideal) V c).arrAt 4 cfg2.N
    = (mm (step (V c main_v2_0) (V c main_v5) (fun j => V c main_v7 (ix2 (0 : Fin 1) (j 0)))) (V c main_arg8) : Mat 10000 256) :=
  (dat2 (F := Ideal) V c).arrAt_eq_of_cover 4 _ (fun t _ => r2_flushed V c t) r2_cover

end Cert.KernelIdeal.Hand

end
-- ==== Proof.IdealArray3.lean ====
/-
  Region 3, from blocks to the array.

  At grid point `t` the output window's block is rows `1000·t … 1000·t + 999` of the result, all columns; the adjacency
  window's block is the same rows of the adjacency matrix; the support matrix and the bias row are whole at every point.
  One step on a row tile of the adjacency reads only those rows, so the value written back at `t` is block `t` of one step
  on the whole arrays; the ten blocks tile the result (row `r` lies in block `r / 1000`), so the result array ends at that step.
-/
import proofs.«146984_g21294447854208_cont_8to1_547_18_alg».proof.Proof.IdealRegion3
import proofs.«146984_g21294447854208_cont_8to1_547_18_alg».proof.Proof.Payloads
import proofs.«146984_g21294447854208_cont_8to1_547_18_alg».proof.Proof.Spec
import Idealize.ShloMosaic.Lib.Pipeline.Value

set_option maxRecDepth 16384

noncomputable section

namespace Cert.KernelIdeal.Hand

open Cert.KernelIdeal Cert.KernelIdeal.Gen Cert.Gcn Idealize.ShloMosaic Idealize.ShloMosaic.ValueIdx Idealize.ShloMosaic.TcCoe

variable (V : (c : Dev nD) → (b : Ref sig .tc) → Buf (Elt Ideal) ((c : Thread nD τ).loc b))

/-- The zero offsets of a whole-block rectangle, as the constant function. -/
theorem r3_zero_off : (![0, 0] : Fin 2 → Nat) = fun _ => 0 := funext fun a => by fin_cases a <;> rfl

/-- The block indices over the grid: the support and the bias row stay at block 0; the adjacency and the output move down
    the rows with the point and stay at column block 0. -/
theorem r3_index_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The support window's block is the whole support matrix, at every point. -/
theorem r3_support_block (c : Dev nD) (t : Fin cfg3.N) : (iblk3 V c 0 t : S10000x256.Idx → EReal) = V c main_v8 := by
  obtain ⟨e0, e1, -, -, -, -, -, -⟩ := r3_index_facts t
  funext y
  show V c main_v8 (((cfg3.win 0).blk t).view.emb y) = V c main_v8 y
  refine congrArg (V c main_v8) (funext fun a => Fin.ext ?_)
  match a with
  | ⟨0, _⟩ => show win3_0.index t (0 : Fin 2) * 10000 + 1 * (y 0).val = (y 0).val; omega
  | ⟨1, _⟩ => show win3_0.index t (1 : Fin 2) * 256 + 1 * (y 1).val = (y 1).val; omega

/-- The bias window's block is the whole bias row, at every point. -/
theorem r3_bias_block (c : Dev nD) (t : Fin cfg3.N) : (iblk3 V c 1 t : S1x256.Idx → EReal) = V c main_v10 := by
  obtain ⟨-, -, e2, e3, -, -, -, -⟩ := r3_index_facts t
  funext y
  show V c main_v10 (((cfg3.win 1).blk t).view.emb y) = V c main_v10 y
  refine congrArg (V c main_v10) (funext fun a => Fin.ext ?_)
  match a with
  | ⟨0, _⟩ => show win3_1.index t (0 : Fin 2) * 1 + 1 * (y 0).val = (y 0).val; omega
  | ⟨1, _⟩ => show win3_1.index t (1 : Fin 2) * 256 + 1 * (y 1).val = (y 1).val; omega

/-- Row `p` of the adjacency window's block at point `t` is row `1000·t + p` of the adjacency matrix. -/
theorem r3_adj_block (c : Dev nD) (t : Fin cfg3.N) (p : Fin 1000) (P : Fin 10000) (hP : P.val = t.val * 1000 + p.val) (j : Fin 10000) :
    (iblk3 V c 2 t : S1000x10000.Idx → EReal) (ix2 p j) = V c main_v2_0 (ix2 P j) := by
  obtain ⟨-, -, -, -, e4, e5, -, -⟩ := r3_index_facts t
  show V c main_v2_0 (((cfg3.win 2).blk t).view.emb (ix2 p j)) = V c main_v2_0 (ix2 P j)
  refine congrArg (V c main_v2_0) (funext fun a => Fin.ext ?_)
  match a with
  | ⟨0, _⟩ => show win3_2.index t (0 : Fin 2) * 1000 + 1 * p.val = P.val; omega
  | ⟨1, _⟩ => show win3_2.index t (1 : Fin 2) * 10000 + 1 * j.val = j.val; omega

/-- What point `t` writes back is block `t` of one step on the whole arrays. -/
theorem r3_flushed (c : Dev nD) (t : Fin cfg3.N) :
    (dat3 (F := Ideal) V c).flushed 3 t = ((cfg3.win 3).blk t).view.read (Elt Ideal)
      (step (V c main_v2_0) (V c main_v8) (fun j => V c main_v10 (ix2 (0 : Fin 1) (j 0))) : Mat 10000 256) := by
  show (cfg3.win 3).cut (grid3.coords t) ((dat3 V c).after 3 t) = _
  rw [after3_3]
  unfold out3_3
  rw [View.canon_unit_zero r3_zero_off]
  simp only [View.ld_unit_zero (S := S1000x10000) r3_zero_off, View.ld_unit_zero (S := S10000x256) r3_zero_off,
    View.ld_unit_zero (S := S1x256) r3_zero_off]
  rw [Pay.last_block, r3_support_block, r3_bias_block]
  obtain ⟨-, -, -, -, -, -, e6, e7⟩ := r3_index_facts t
  have hN : t.val < 10 := Nat.lt_of_lt_of_eq t.isLt N_3
  funext y
  have hy0 : (y 0).val < 1000 := (y 0).isLt
  have hy1 : (y 1).val < 256 := (y 1).isLt
  have eL : (cfg3.win 3).xinj (grid3.coords t) y = ix2 (⟨(y 0).val, hy0⟩ : Fin 1000) (⟨(y 1).val, hy1⟩ : Fin 256) :=
    funext fun a => by match a with | ⟨0, _⟩ => rfl | ⟨1, _⟩ => rfl
  have eR : ((cfg3.win 3).blk t).view.emb y
      = ix2 (⟨t.val * 1000 + (y 0).val, by omega⟩ : Fin 10000) (⟨(y 1).val, hy1⟩ : Fin 256) :=
    funext fun a => Fin.ext (by
      match a with
      | ⟨0, _⟩ => show win3_3.index t (0 : Fin 2) * 1000 + 1 * (y 0).val = t.val * 1000 + (y 0).val; omega
      | ⟨1, _⟩ => show win3_3.index t (1 : Fin 2) * 256 + 1 * (y 1).val = (y 1).val; omega)
  show step (iblk3 V c 2 t : S1000x10000.Idx → EReal) (V c main_v8) (fun j => V c main_v10 (ix2 (0 : Fin 1) (j 0)))
      ((cfg3.win 3).xinj (grid3.coords t) y)
    = step (V c main_v2_0) (V c main_v8) (fun j => V c main_v10 (ix2 (0 : Fin 1) (j 0))) (((cfg3.win 3).blk t).view.emb y)
  rw [eL, eR]
  exact step_row_congr _ _ _ _ _ _ _ fun j => r3_adj_block V c t _ _ rfl j

/-- An index of the result is in point `t`'s block iff each coordinate is in the block's range on its axis. -/
theorem r3_mem_blk (t : Fin cfg3.N) (i : S10000x256.Idx) :
    i ∈ ((cfg3.win 3).blk t).view.set ↔ ∀ a : Fin 2, win3_3.index t a * S1000x256.size a ≤ (i a).val
      ∧ (i a).val < win3_3.index t a * S1000x256.size a + S1000x256.size a := by
  show i ∈ ((View.whole main_v11).slice (win3_3.rect t)).set ↔ _
  rw [View.set_slice_whole, Rect.mem_set_unit]
  exact Iff.rfl

/-- Every index of the result is in the block of the point its row divided by 1000 names, and every point writes back. -/
theorem r3_cover (i : S10000x256.Idx) :
    ∃ t : Fin cfg3.N, (cfg3.win 3).flush t = true ∧ i ∈ ((cfg3.win 3).blk t).view.set := by
  have hi0 : (i 0).val < 10000 := (i 0).isLt
  have hi1 : (i 1).val < 256 := (i 1).isLt
  obtain ⟨t, ht⟩ : ∃ t : Fin cfg3.N, t.val = (i 0).val / 1000 :=
    ⟨⟨(i 0).val / 1000, Nat.lt_of_lt_of_eq (show (i 0).val / 1000 < 10 by omega) N_3.symm⟩, rfl⟩
  obtain ⟨-, -, -, -, -, -, e6, e7⟩ := r3_index_facts t
  refine ⟨t, flush3_3 t, ?_⟩
  rw [r3_mem_blk]
  intro a
  match a with
  | ⟨0, _⟩ =>
    show win3_3.index t (0 : Fin 2) * 1000 ≤ (i 0).val ∧ (i 0).val < win3_3.index t (0 : Fin 2) * 1000 + 1000
    omega
  | ⟨1, _⟩ =>
    show win3_3.index t (1 : Fin 2) * 256 ≤ (i 1).val ∧ (i 1).val < win3_3.index t (1 : Fin 2) * 256 + 256
    omega

/-- The result array after the region: one step on the adjacency copy, the support and the bias row as the region found them. -/
theorem final3 (c : Dev nD) : (dat3 (F := Ideal) V c).arrAt 3 cfg3.N
    = (step (V c main_v2_0) (V c main_v8) (fun j => V c main_v10 (ix2 (0 : Fin 1) (j 0))) : Mat 10000 256) :=
  (dat3 (F := Ideal) V c).arrAt_eq_of_cover 3 _ (fun t _ => r3_flushed V c t) r3_cover

end Cert.KernelIdeal.Hand

end
-- ==== Proof.IdealValue.lean ====
/-
  The result array. Following the buffers through the run: region 0 leaves the adjacency's copy (the adjacency itself, over
  the extended reals) and the second support matrix  s₂ = max (A · (x · W₁) + b₁) 0 · W₂ ; regions 1 and 2 each turn a support
  matrix into the next,  sₗ₊₁ = max (A · sₗ + bₗ) 0 · Wₗ₊₁ ; region 3 leaves  max (A · s₄ + b₄) 0 . Each host stretch only
  reshapes a bias vector into the one-row matrix the next region reads, and no item touches an argument array. Composed, the
  result array holds the four-layer network of the argument arrays.
-/
import proofs.«146984_g21294447854208_cont_8to1_547_18_alg».proof.Proof.IdealKeep
import proofs.«146984_g21294447854208_cont_8to1_547_18_alg».proof.Proof.IdealArray0
import proofs.«146984_g21294447854208_cont_8to1_547_18_alg».proof.Proof.IdealArray12
import proofs.«146984_g21294447854208_cont_8to1_547_18_alg».proof.Proof.IdealArray3
import proofs.«146984_g21294447854208_cont_8to1_547_18_alg».proof.Proof.Spec
import Idealize.ShloMosaic.Lib.StableHlo.Run
import Idealize.ShloMosaic.Lib.Pipeline.Value
import Idealize.ShloMosaic.Lib.ValueLayout

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx Idealize.SL.Sem

/-! ## A reshaped bias vector, read as a row -/

theorem row_after0 (W : Valuation τ sig (Elt Ideal)) :
    StableHlo.after hostOps0 W (Proc.devRef .tc main_v1) = shapeCast S1x256 (W (Proc.devRef .tc main_arg3)) shapeCasts_S256_S1x256 := by
  after_results; rfl
theorem row_after1 (W : Valuation τ sig (Elt Ideal)) :
    StableHlo.after hostOps1 W (Proc.devRef .tc main_v4) = shapeCast S1x256 (W (Proc.devRef .tc main_arg5)) shapeCasts_S256_S1x256 := by
  after_results; rfl
theorem row_after2 (W : Valuation τ sig (Elt Ideal)) :
    StableHlo.after hostOps2 W (Proc.devRef .tc main_v7) = shapeCast S1x256 (W (Proc.devRef .tc main_arg7)) shapeCasts_S256_S1x256 := by
  after_results; rfl
theorem row_after3 (W : Valuation τ sig (Elt Ideal)) :
    StableHlo.after hostOps3 W (Proc.devRef .tc main_v10) = shapeCast S1x256 (W (Proc.devRef .tc main_arg9)) shapeCasts_S256_S1x256 := by
  after_results; rfl

/-- The only row of a vector cast to one row is the vector. -/
theorem row_read (b : (⟨1, ![256]⟩ : Shape).Idx → EReal) (h : (⟨1, ![256]⟩ : Shape).ShapeCasts ⟨2, ![1, 256]⟩) :
    (fun j : (⟨1, ![256]⟩ : Shape).Idx => shapeCast ⟨2, ![1, 256]⟩ b h (ix2 (0 : Fin 1) (j 0))) = b := by
  funext j
  exact (shapeCast_a_1a_apply (a := 256) b h (0 : Fin 1) (j 0)).trans (congrArg b (eq_ix1 j).symm)

variable (m : (ℓ : Loc nD τ sig) → Buf (Elt Ideal) ℓ) (ρ : Dev nD → PrngReg) (c : Dev nD)

/-- The argument arrays on core `c`, as matrices and rows. -/
abbrev aX : Mat 10000 256 := m ((c : Thread nD τ).loc main_arg0)
abbrev aA : Mat 10000 10000 := m ((c : Thread nD τ).loc main_arg1)
abbrev aW1 : Mat 256 256 := m ((c : Thread nD τ).loc main_arg2)
abbrev ab1 : Row 256 := m ((c : Thread nD τ).loc main_arg3)
abbrev aW2 : Mat 256 256 := m ((c : Thread nD τ).loc main_arg4)
abbrev ab2 : Row 256 := m ((c : Thread nD τ).loc main_arg5)
abbrev aW3 : Mat 256 256 := m ((c : Thread nD τ).loc main_arg6)
abbrev ab3 : Row 256 := m ((c : Thread nD τ).loc main_arg7)
abbrev aW4 : Mat 256 256 := m ((c : Thread nD τ).loc main_arg8)
abbrev ab4 : Row 256 := m ((c : Thread nD τ).loc main_arg9)

/-- The support matrices between the regions. -/
def s2 : Mat 10000 256 := mm (step (aA m c) (mm (aX m c) (aW1 m c)) (ab1 m c)) (aW2 m c)
def s3 : Mat 10000 256 := mm (step (aA m c) (s2 m c) (ab2 m c)) (aW3 m c)
def s4 : Mat 10000 256 := mm (step (aA m c) (s3 m c) (ab3 m c)) (aW4 m c)

/-! ## Region 0 -/

theorem adj_at2 : (B2 m ρ c (Proc.devRef .tc main_v2_0) : Mat 10000 10000) = aA m c :=
  ((B2_arr m ρ c 5).trans (final0_5 (U1 m ρ) c)).trans (keepTo1 m ρ c main_arg1 (by decide))

theorem supp_at2 : (B2 m ρ c (Proc.devRef .tc main_v2_1) : Mat 10000 256) = s2 m c := by
  refine ((B2_arr m ρ c 6).trans (final0_6 (U1 m ρ) c)).trans ?_
  have e0 : (U1 m ρ c main_arg0 : Mat 10000 256) = aX m c := keepTo1 m ρ c main_arg0 (by decide)
  have e1 : (U1 m ρ c main_arg1 : Mat 10000 10000) = aA m c := keepTo1 m ρ c main_arg1 (by decide)
  have e2 : (U1 m ρ c main_arg2 : Mat 256 256) = aW1 m c := keepTo1 m ρ c main_arg2 (by decide)
  have e4 : (U1 m ρ c main_arg4 : Mat 256 256) = aW2 m c := keepTo1 m ρ c main_arg4 (by decide)
  have eb : (fun j : (⟨1, ![256]⟩ : Shape).Idx => (U1 m ρ c main_v1 : Mat 1 256) (ix2 (0 : Fin 1) (j 0))) = ab1 m c := by
    rw [show (U1 m ρ c main_v1 : Mat 1 256) = shapeCast S1x256 (B0 m ρ c (Proc.devRef .tc main_arg3)) shapeCasts_S256_S1x256 from row_after0 (B0 m ρ c)]
    exact row_read _ _
  unfold s2
  rw [← e0, ← e1, ← e2, ← e4, ← eb]

/-! ## Region 1 -/

theorem adj_at3 : (U3 m ρ c main_v2_0 : Mat 10000 10000) = aA m c :=
  (hostKeep1 m ρ c main_v2_0 (by decide)).trans (adj_at2 m ρ c)
theorem adj_at4 : (B4 m ρ c (Proc.devRef .tc main_v2_0) : Mat 10000 10000) = aA m c :=
  (regKeep1 m ρ c main_v2_0 (by decide)).trans (adj_at3 m ρ c)

theorem supp_at4 : (B4 m ρ c (Proc.devRef .tc main_v5) : Mat 10000 256) = s3 m c := by
  refine ((B4_arr m ρ c 4).trans (final1 (U3 m ρ) c)).trans ?_
  have e0 : (U3 m ρ c main_v2_1 : Mat 10000 256) = s2 m c := (hostKeep1 m ρ c main_v2_1 (by decide)).trans (supp_at2 m ρ c)
  have e1 : (U3 m ρ c main_v2_0 : Mat 10000 10000) = aA m c := adj_at3 m ρ c
  have e2 : (U3 m ρ c main_arg6 : Mat 256 256) = aW3 m c := keepTo3 m ρ c main_arg6 (by decide) (by decide) (by decide)
  have eb : (fun j : (⟨1, ![256]⟩ : Shape).Idx => (U3 m ρ c main_v4 : Mat 1 256) (ix2 (0 : Fin 1) (j 0))) = ab2 m c := by
    rw [show (U3 m ρ c main_v4 : Mat 1 256) = shapeCast S1x256 (B2 m ρ c (Proc.devRef .tc main_arg5)) shapeCasts_S256_S1x256 from row_after1 (B2 m ρ c),
      show B2 m ρ c (Proc.devRef .tc main_arg5) = m ((c : Thread nD τ).loc main_arg5) from keepTo2 m ρ c main_arg5 (by decide) (by decide)]
    exact row_read _ _
  unfold s3
  rw [← e0, ← e1, ← e2, ← eb]

/-! ## Region 2 -/

theorem adj_at5 : (U5 m ρ c main_v2_0 : Mat 10000 10000) = aA m c :=
  (hostKeep2 m ρ c main_v2_0 (by decide)).trans (adj_at4 m ρ c)
theorem adj_at6 : (B6 m ρ c (Proc.devRef .tc main_v2_0) : Mat 10000 10000) = aA m c :=
  (regKeep2 m ρ c main_v2_0 (by decide)).trans (adj_at5 m ρ c)

theorem supp_at6 : (B6 m ρ c (Proc.devRef .tc main_v8) : Mat 10000 256) = s4 m c := by
  refine ((B6_arr m ρ c 4).trans (final2 (U5 m ρ) c)).trans ?_
  have e0 : (U5 m ρ c main_v5 : Mat 10000 256) = s3 m c := (hostKeep2 m ρ c main_v5 (by decide)).trans (supp_at4 m ρ c)
  have e1 : (U5 m ρ c main_v2_0 : Mat 10000 10000) = aA m c := adj_at5 m ρ c
  have e2 : (U5 m ρ c main_arg8 : Mat 256 256) = aW4 m c := keepTo5 m ρ c main_arg8 (by decide) (by decide) (by decide) (by decide) (by decide)
  have eb : (fun j : (⟨1, ![256]⟩ : Shape).Idx => (U5 m ρ c main_v7 : Mat 1 256) (ix2 (0 : Fin 1) (j 0))) = ab3 m c := by
    rw [show (U5 m ρ c main_v7 : Mat 1 256) = shapeCast S1x256 (B4 m ρ c (Proc.devRef .tc main_arg7)) shapeCasts_S256_S1x256 from row_after2 (B4 m ρ c),
      show B4 m ρ c (Proc.devRef .tc main_arg7) = m ((c : Thread nD τ).loc main_arg7) from keepTo4 m ρ c main_arg7 (by decide) (by decide) (by decide) (by decide)]
    exact row_read _ _
  unfold s4
  rw [← e0, ← e1, ← e2, ← eb]

/-! ## Region 3 and the result -/

theorem adj_at7 : (U7 m ρ c main_v2_0 : Mat 10000 10000) = aA m c :=
  (hostKeep3 m ρ c main_v2_0 (by decide)).trans (adj_at6 m ρ c)

/-- The result array after the run is the network of the argument arrays. -/
theorem result_eq : (B8 m ρ c (Proc.devRef .tc main_v11) : Mat 10000 256)
    = net (aX m c) (aA m c) (aW1 m c) (ab1 m c) (aW2 m c) (ab2 m c) (aW3 m c) (ab3 m c) (aW4 m c) (ab4 m c) := by
  refine ((B8_arr m ρ c 3).trans (final3 (U7 m ρ) c)).trans ?_
  have e0 : (U7 m ρ c main_v8 : Mat 10000 256) = s4 m c := (hostKeep3 m ρ c main_v8 (by decide)).trans (supp_at6 m ρ c)
  have e1 : (U7 m ρ c main_v2_0 : Mat 10000 10000) = aA m c := adj_at7 m ρ c
  have eb : (fun j : (⟨1, ![256]⟩ : Shape).Idx => (U7 m ρ c main_v10 : Mat 1 256) (ix2 (0 : Fin 1) (j 0))) = ab4 m c := by
    rw [show (U7 m ρ c main_v10 : Mat 1 256) = shapeCast S1x256 (B6 m ρ c (Proc.devRef .tc main_arg9)) shapeCasts_S256_S1x256 from row_after3 (B6 m ρ c),
      show B6 m ρ c (Proc.devRef .tc main_arg9) = m ((c : Thread nD τ).loc main_arg9) from keepTo6 m ρ c main_arg9 (by decide) (by decide) (by decide) (by decide) (by decide) (by decide)]
    exact row_read _ _
  rw [e0, e1, eb]
  rfl

/-- THE VALUE RUN: every weakly fair execution of @main terminates, nothing faulting, the result array holds the network of
    the argument arrays and the argument arrays end as launched. -/
theorem run_value : θ_run defs (onTc (τ := τ) (main (F := Ideal))) ⟨m, fun _ => 0, ρ⟩ (fun r => ∀ c : Dev nD,
      r.2.mem ((c.tc : Thread nD τ).loc main_v11) = net (aX m c) (aA m c) (aW1 m c) (ab1 m c) (aW2 m c) (ab2 m c) (aW3 m c) (ab3 m c) (aW4 m c) (ab4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_v11 (by decide))).trans (result_eq m ρ c),
     (h c _ (mem_uc main_arg0 (by decide))).trans (arg_kept m ρ c main_arg0 (by decide)),
     (h c _ (mem_uc main_arg1 (by decide))).trans (arg_kept m ρ c main_arg1 (by decide)),
     (h c _ (mem_uc main_arg2 (by decide))).trans (arg_kept m ρ c main_arg2 (by decide)),
     (h c _ (mem_uc main_arg3 (by decide))).trans (arg_kept m ρ c main_arg3 (by decide)),
     (h c _ (mem_uc main_arg4 (by decide))).trans (arg_kept m ρ c main_arg4 (by decide)),
     (h c _ (mem_uc main_arg5 (by decide))).trans (arg_kept m ρ c main_arg5 (by decide)),
     (h c _ (mem_uc main_arg6 (by decide))).trans (arg_kept m ρ c main_arg6 (by decide)),
     (h c _ (mem_uc main_arg7 (by decide))).trans (arg_kept m ρ c main_arg7 (by decide)),
     (h c _ (mem_uc main_arg8 (by decide))).trans (arg_kept m ρ c main_arg8 (by decide)),
     (h c _ (mem_uc main_arg9 (by decide))).trans (arg_kept m ρ c main_arg9 (by decide))⟩)
    (run_all m ρ)

end Cert.KernelIdeal.Hand

end
-- ==== Proof.RefNet.lean ====
/-
  The reference program computes the four-layer graph-convolution network of the specification.

  The generated reading of the reference gives each operation's value at an index: a product of matrices is the sum over
  the contracted axis, the two broadcasts of a bias read the bias at the column, the sum and the maximum act entry by entry,
  and the maximum's second operand is the constant zero. Each weight product is therefore the specification's `mm`, and each
  group "adjacency product, add bias, maximum with zero" is the specification's `step`; the four layers chain to `net`.
-/
import proofs.«146984_g21294447854208_cont_8to1_547_18_alg».proof.Proof.Spec
import proofs.«146984_g21294447854208_cont_8to1_547_18_alg».proof.Proof.Gen.ReferenceIdeal.Read

noncomputable section

open scoped BigOperators

namespace Cert.RefNet

open Cert.ReferenceIdeal Cert.ReferenceIdeal.Gen Cert.ReferenceIdeal.Read Idealize.ShloMosaic Idealize.ShloMosaic.ValueIdx

/-- Two rank-2 indices are equal when their two coordinates are. -/
local macro "coords" : tactic => `(tactic| (funext a; match a with | ⟨0, _⟩ => rfl | ⟨1, _⟩ => rfl))
/-- Two rank-1 indices are equal when their coordinate is. -/
local macro "coord" : tactic => `(tactic| (funext a; match a with | ⟨0, _⟩ => rfl))

/-- The first product with a weight matrix is the specification's matrix product of its two operands. -/
theorem support_1 (x0 : (⟨S10000x256, .f32⟩ : BufTy).Contents (Elt Ideal)) (x2 : (⟨S256x256, .f32⟩ : BufTy).Contents (Elt Ideal)) :
    val_main_v0 (F := Ideal) x0 x2 = Cert.Gcn.mm x0 x2 := by
  funext i
  obtain ⟨p, q, rfl⟩ : ∃ (p : Fin 10000) (q : Fin 256), i = ix2 p q := ⟨i 0, i 1, eq_ix2 i⟩
  have hl : ∀ k : Fin 256, lidx_main_v0 (ix2 p q) k = ix2 p k := fun k => by coords
  have hr : ∀ k : Fin 256, ridx_main_v0 (ix2 p q) k = ix2 k q := fun k => by coords
  rw [val_main_v0_apply, Cert.Gcn.mm_apply]
  exact Finset.sum_congr rfl fun k _ => by rw [hl k, hr k]

/-- The first hidden matrix: the adjacency product of the support, plus the bias along the rows, cut off below at zero. -/
theorem hidden_1 (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256, .f32⟩ : BufTy).Contents (Elt Ideal)) :
    val_main_v5 (F := Ideal) x0 x1 x2 x3 = Cert.Gcn.step x1 (val_main_v0 (F := Ideal) x0 x2) x3 := by
  funext i
  obtain ⟨p, q, rfl⟩ : ∃ (p : Fin 10000) (q : Fin 256), i = ix2 p q := ⟨i 0, i 1, eq_ix2 i⟩
  have hl : ∀ k : Fin 10000, lidx_main_v1 (ix2 p q) k = ix2 p k := fun k => by coords
  have hr : ∀ k : Fin 10000, ridx_main_v1 (ix2 p q) k = ix2 k q := fun k => by coords
  have hb : idx_main_v2 (idx_main_v3 (ix2 p q)) = ix1 q := by coord
  rw [val_main_v5_apply, val_main_v4_apply, val_main_v1_apply, val_main_v3_apply, val_main_v2_apply,
    val_main_call0_v0_apply, val_main_call0_cst_apply, Cert.Gcn.step_apply, Ideal.maximumf_def, Ideal.addf_def,
    Ideal.ofBits_def, Ideal.ofBits_zero_f32, hb]
  exact congrArg (fun z => max (z + x3 (ix1 q)) 0) (Finset.sum_congr rfl fun k _ => by rw [hl k, hr k])

/-- The second product with a weight matrix is the specification's matrix product of its two operands. -/
theorem support_2 (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) :
    val_main_v6 (F := Ideal) x0 x1 x2 x3 x4 = Cert.Gcn.mm (val_main_v5 (F := Ideal) x0 x1 x2 x3) x4 := by
  funext i
  obtain ⟨p, q, rfl⟩ : ∃ (p : Fin 10000) (q : Fin 256), i = ix2 p q := ⟨i 0, i 1, eq_ix2 i⟩
  have hl : ∀ k : Fin 256, lidx_main_v6 (ix2 p q) k = ix2 p k := fun k => by coords
  have hr : ∀ k : Fin 256, ridx_main_v6 (ix2 p q) k = ix2 k q := fun k => by coords
  rw [val_main_v6_apply, Cert.Gcn.mm_apply]
  exact Finset.sum_congr rfl fun k _ => by rw [hl k, hr k]

/-- The second hidden matrix: the adjacency product of the support, plus the bias along the rows, cut off below at zero. -/
theorem hidden_2 (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) :
    val_main_v11 (F := Ideal) x0 x1 x2 x3 x4 x5 = Cert.Gcn.step x1 (val_main_v6 (F := Ideal) x0 x1 x2 x3 x4) x5 := by
  funext i
  obtain ⟨p, q, rfl⟩ : ∃ (p : Fin 10000) (q : Fin 256), i = ix2 p q := ⟨i 0, i 1, eq_ix2 i⟩
  have hl : ∀ k : Fin 10000, lidx_main_v7 (ix2 p q) k = ix2 p k := fun k => by coords
  have hr : ∀ k : Fin 10000, ridx_main_v7 (ix2 p q) k = ix2 k q := fun k => by coords
  have hb : idx_main_v8 (idx_main_v9 (ix2 p q)) = ix1 q := by coord
  rw [val_main_v11_apply, val_main_v10_apply, val_main_v7_apply, val_main_v9_apply, val_main_v8_apply,
    val_main_call1_v0_apply, val_main_call1_cst_apply, Cert.Gcn.step_apply, Ideal.maximumf_def, Ideal.addf_def,
    Ideal.ofBits_def, Ideal.ofBits_zero_f32, hb]
  exact congrArg (fun z => max (z + x5 (ix1 q)) 0) (Finset.sum_congr rfl fun k _ => by rw [hl k, hr k])

/-- The third product with a weight matrix is the specification's matrix product of its two operands. -/
theorem support_3 (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) :
    val_main_v12 (F := Ideal) x0 x1 x2 x3 x4 x5 x6 = Cert.Gcn.mm (val_main_v11 (F := Ideal) x0 x1 x2 x3 x4 x5) x6 := by
  funext i
  obtain ⟨p, q, rfl⟩ : ∃ (p : Fin 10000) (q : Fin 256), i = ix2 p q := ⟨i 0, i 1, eq_ix2 i⟩
  have hl : ∀ k : Fin 256, lidx_main_v12 (ix2 p q) k = ix2 p k := fun k => by coords
  have hr : ∀ k : Fin 256, ridx_main_v12 (ix2 p q) k = ix2 k q := fun k => by coords
  rw [val_main_v12_apply, Cert.Gcn.mm_apply]
  exact Finset.sum_congr rfl fun k _ => by rw [hl k, hr k]

/-- The third hidden matrix: the adjacency product of the support, plus the bias along the rows, cut off below at zero. -/
theorem hidden_3 (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) :
    val_main_v17 (F := Ideal) x0 x1 x2 x3 x4 x5 x6 x7 = Cert.Gcn.step x1 (val_main_v12 (F := Ideal) x0 x1 x2 x3 x4 x5 x6) x7 := by
  funext i
  obtain ⟨p, q, rfl⟩ : ∃ (p : Fin 10000) (q : Fin 256), i = ix2 p q := ⟨i 0, i 1, eq_ix2 i⟩
  have hl : ∀ k : Fin 10000, lidx_main_v13 (ix2 p q) k = ix2 p k := fun k => by coords
  have hr : ∀ k : Fin 10000, ridx_main_v13 (ix2 p q) k = ix2 k q := fun k => by coords
  have hb : idx_main_v14 (idx_main_v15 (ix2 p q)) = ix1 q := by coord
  rw [val_main_v17_apply, val_main_v16_apply, val_main_v13_apply, val_main_v15_apply, val_main_v14_apply,
    val_main_call2_v0_apply, val_main_call2_cst_apply, Cert.Gcn.step_apply, Ideal.maximumf_def, Ideal.addf_def,
    Ideal.ofBits_def, Ideal.ofBits_zero_f32, hb]
  exact congrArg (fun z => max (z + x7 (ix1 q)) 0) (Finset.sum_congr rfl fun k _ => by rw [hl k, hr k])

/-- The fourth product with a weight matrix is the specification's matrix product of its two operands. -/
theorem support_4 (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) :
    val_main_v18 (F := Ideal) x0 x1 x2 x3 x4 x5 x6 x7 x8 = Cert.Gcn.mm (val_main_v17 (F := Ideal) x0 x1 x2 x3 x4 x5 x6 x7) x8 := by
  funext i
  obtain ⟨p, q, rfl⟩ : ∃ (p : Fin 10000) (q : Fin 256), i = ix2 p q := ⟨i 0, i 1, eq_ix2 i⟩
  have hl : ∀ k : Fin 256, lidx_main_v18 (ix2 p q) k = ix2 p k := fun k => by coords
  have hr : ∀ k : Fin 256, ridx_main_v18 (ix2 p q) k = ix2 k q := fun k => by coords
  rw [val_main_v18_apply, Cert.Gcn.mm_apply]
  exact Finset.sum_congr rfl fun k _ => by rw [hl k, hr k]

/-- The fourth hidden matrix: the adjacency product of the support, plus the bias along the rows, cut off below at zero. -/
theorem hidden_4 (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) :
    val_main_v23 (F := Ideal) x0 x1 x2 x3 x4 x5 x6 x7 x8 x9 = Cert.Gcn.step x1 (val_main_v18 (F := Ideal) x0 x1 x2 x3 x4 x5 x6 x7 x8) x9 := by
  funext i
  obtain ⟨p, q, rfl⟩ : ∃ (p : Fin 10000) (q : Fin 256), i = ix2 p q := ⟨i 0, i 1, eq_ix2 i⟩
  have hl : ∀ k : Fin 10000, lidx_main_v19 (ix2 p q) k = ix2 p k := fun k => by coords
  have hr : ∀ k : Fin 10000, ridx_main_v19 (ix2 p q) k = ix2 k q := fun k => by coords
  have hb : idx_main_v20 (idx_main_v21 (ix2 p q)) = ix1 q := by coord
  rw [val_main_v23_apply, val_main_v22_apply, val_main_v19_apply, val_main_v21_apply, val_main_v20_apply,
    val_main_call3_v0_apply, val_main_call3_cst_apply, Cert.Gcn.step_apply, Ideal.maximumf_def, Ideal.addf_def,
    Ideal.ofBits_def, Ideal.ofBits_zero_f32, hb]
  exact congrArg (fun z => max (z + x9 (ix1 q)) 0) (Finset.sum_congr rfl fun k _ => by rw [hl k, hr k])

/-- The reference's result is the network of the specification, as a function of the ten arguments. -/
theorem ref_is_net (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) :
    val_main_v23 (F := Ideal) x0 x1 x2 x3 x4 x5 x6 x7 x8 x9 = Cert.Gcn.net x0 x1 x2 x3 x4 x5 x6 x7 x8 x9 := by
  rw [hidden_4, support_4, hidden_3, support_3, hidden_2, support_2, hidden_1, support_1]
  rfl

/-- The same for the composed term of the ten arguments that the reference's run states for its result. -/
theorem run_term_is_net (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) :
    maximumf (addf (Host.dotGeneral (φ₁ := .f32) (φ₂ := .f32) dot_S10000x10000_S10000x256_S10000x256_1_0_0_1_n_n none (x1) (Host.dotGeneral (φ₁ := .f32) (φ₂ := .f32) dot_S10000x256_S256x256_S10000x256_1_0_0_1_n_n none (maximumf (addf (Host.dotGeneral (φ₁ := .f32) (φ₂ := .f32) dot_S10000x10000_S10000x256_S10000x256_1_0_0_1_n_n none (x1) (Host.dotGeneral (φ₁ := .f32) (φ₂ := .f32) dot_S10000x256_S256x256_S10000x256_1_0_0_1_n_n none (maximumf (addf (Host.dotGeneral (φ₁ := .f32) (φ₂ := .f32) dot_S10000x10000_S10000x256_S10000x256_1_0_0_1_n_n none (x1) (Host.dotGeneral (φ₁ := .f32) (φ₂ := .f32) dot_S10000x256_S256x256_S10000x256_1_0_0_1_n_n none (maximumf (addf (Host.dotGeneral (φ₁ := .f32) (φ₂ := .f32) dot_S10000x10000_S10000x256_S10000x256_1_0_0_1_n_n none (x1) (Host.dotGeneral (φ₁ := .f32) (φ₂ := .f32) dot_S10000x256_S256x256_S10000x256_1_0_0_1_n_n none (x0) (x2))) (broadcastInDim S10000x256 ![0, 1] bcast_S1x256_S10000x256_0_1 (broadcastInDim S1x256 ![1] bcast_S256_S1x256_1 (x3)))) (broadcastInDim S10000x256 ![] bcast_S_S10000x256 (constant (F := Ideal) S_ .f32 0x00000000#32))) (x4))) (broadcastInDim S10000x256 ![0, 1] bcast_S1x256_S10000x256_0_1 (broadcastInDim S1x256 ![1] bcast_S256_S1x256_1 (x5)))) (broadcastInDim S10000x256 ![] bcast_S_S10000x256 (constant (F := Ideal) S_ .f32 0x00000000#32))) (x6))) (broadcastInDim S10000x256 ![0, 1] bcast_S1x256_S10000x256_0_1 (broadcastInDim S1x256 ![1] bcast_S256_S1x256_1 (x7)))) (broadcastInDim S10000x256 ![] bcast_S_S10000x256 (constant (F := Ideal) S_ .f32 0x00000000#32))) (x8))) (broadcastInDim S10000x256 ![0, 1] bcast_S1x256_S10000x256_0_1 (broadcastInDim S1x256 ![1] bcast_S256_S1x256_1 (x9)))) (broadcastInDim S10000x256 ![] bcast_S_S10000x256 (constant (F := Ideal) S_ .f32 0x00000000#32))
      = Cert.Gcn.net x0 x1 x2 x3 x4 x5 x6 x7 x8 x9 :=
  (val_main_v23_eq (F := Ideal) x0 x1 x2 x3 x4 x5 x6 x7 x8 x9).trans (ref_is_net x0 x1 x2 x3 x4 x5 x6 x7 x8 x9)

end Cert.RefNet

end
-- ==== Proof.lean ====
/-
  The certificate's claims.

  Both programs compute a four-layer graph convolution network: with  s₁ = x · W₁ , each layer is
  hₗ = max (A · sₗ + bₗ) 0  and the next support is  sₗ₊₁ = hₗ · Wₗ₊₁ ; the result is  h₄ . The kernel does it in four
  pipelined regions — the first also copies the adjacency in a narrower float format, which over the extended reals is the
  adjacency itself, and every region but the last folds the next weight product into its row tiles — the reference as host
  matrix products, broadcasts, sums and maxima. Over the extended reals every change of float format is the identity and
  every matrix product the plain sum over the contracted axis, so the two results are the same expression of the argument
  arrays, entry by entry, with no algebraic law needed between them and no use of the inputs' finiteness.

  The three frames: each program runs to the end, faults nowhere and leaves its argument arrays unchanged — for the two
  kernel programs from the run through the four regions (no item writes an argument array), for the reference from its
  run of host operations. The idealization rewrote nothing, so there is nothing to preserve.
-/
import proofs.«146984_g21294447854208_cont_8to1_547_18_alg».proof.Defs
import proofs.«146984_g21294447854208_cont_8to1_547_18_alg».proof.Proof.Gen.Kernel
import proofs.«146984_g21294447854208_cont_8to1_547_18_alg».proof.Proof.Gen.KernelIdeal
import proofs.«146984_g21294447854208_cont_8to1_547_18_alg».proof.Proof.Gen.ReferenceIdeal
import proofs.«146984_g21294447854208_cont_8to1_547_18_alg».proof.Proof.Gen.ReferenceIdeal.Run
import proofs.«146984_g21294447854208_cont_8to1_547_18_alg».proof.Proof.Gen.ReferenceIdeal.Read
import proofs.«146984_g21294447854208_cont_8to1_547_18_alg».proof.Proof.Gen.Pre_finite_inputs
import proofs.«146984_g21294447854208_cont_8to1_547_18_alg».proof.Proof.BitsKeep
import proofs.«146984_g21294447854208_cont_8to1_547_18_alg».proof.Proof.IdealValue
import proofs.«146984_g21294447854208_cont_8to1_547_18_alg».proof.Proof.RefNet
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel :=
  fun m ρ _ => Cert.Kernel.Hand.frame m ρ

/-- The idealized kernel runs and keeps its arguments. -/
theorem frame_kernel_ideal : Cert.frame_KernelIdeal :=
  fun m ρ _ => Cert.KernelIdeal.Hand.frame m ρ

/-- The reference runs and keeps its arguments: its run of host operations with the result dropped. -/
theorem frame_reference : Cert.frame_ReferenceIdeal :=
  fun m ρ _ => (θ_run Cert.ReferenceIdeal.defs _ _).mono (fun _ h c => (h c).2) (Cert.ReferenceIdeal.Value.run (F := Ideal) m ρ)

/-- From memories that agree on the arguments both programs end with the network of those arguments in their result array. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [e0, e1, e2, e3, e4, e5, e6, e7, e8, e9]
  exact Cert.RefNet.run_term_is_net _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
